-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S_ : Shape := ⟨0, ![]⟩

class Facts : Prop where
  bcast_S_S1171456x128 : S_.BroadcastsInDim S1171456x128 (![] : Fin 0 → Fin S1171456x128.rank)
  reducesTo_S1171456x128_S_d0_1 : S1171456x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1171456x128 .f32) (main_arg1 : FVec F S128x256 .f32) (main_arg2 : FVec F S128x256 .f32) (main_arg3 : FVec F S256 .f32) (main_arg4 : FVec F S256x64 .f32) (main_arg5 : FVec F S256x64 .f32) (main_arg6 : FVec F S64 .f32) (main_arg7 : IVec S1126400 32) (main_arg8 : IVec S1126400 32) (main_arg9 : IVec S40960 32) (main_arg10 : IVec S40960 32) : IVec S_ 1 :=
  let main_v0 : FVec F S1171456x128 .f32 := Host.absf main_arg0
  let main_cst : FVec F S_ .f32 := constant S_ .f32 0x7F800000#32
  let main_v1 : FVec F S1171456x128 .f32 := broadcastInDim S1171456x128 ![] bcast_S_S1171456x128 main_cst
  let main_v2 : IVec S1171456x128 1 := cmpf .olt main_v0 main_v1
  let main_c : IVec S_ 1 := constantI S_ 1 1#1
  let main_v3 : IVec S_ 1 := (fun x v => Host.reduce IntOp.andi x v reducesTo_S1171456x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S_ : Shape := ⟨0, ![]⟩
abbrev S1126400x1 : Shape := ⟨2, ![1126400, 1]⟩
abbrev S1126400x128 : Shape := ⟨2, ![1126400, 128]⟩
abbrev S45056x128 : Shape := ⟨2, ![45056, 128]⟩
abbrev S45056 : Shape := ⟨1, ![45056]⟩
abbrev S45056x1 : Shape := ⟨2, ![45056, 1]⟩
abbrev S1x256 : Shape := ⟨2, ![1, 256]⟩
abbrev S45056x256 : Shape := ⟨2, ![45056, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S2048x128 : Shape := ⟨2, ![2048, 128]⟩
abbrev S2048x1 : Shape := ⟨2, ![2048, 1]⟩
abbrev S2048x256 : Shape := ⟨2, ![2048, 256]⟩
abbrev S1024x256 : Shape := ⟨2, ![1024, 256]⟩
abbrev S1024x1 : Shape := ⟨2, ![1024, 1]⟩
abbrev S1024x64 : Shape := ⟨2, ![1024, 64]⟩
abbrev S1024 : Shape := ⟨1, ![1024]⟩

abbrev nBuf : Space → Nat
  | .hbm => 57
  | .vmem => 22
  | .smem => 0
  | _ => 0

abbrev bufTy : (tb : Table) → Fin (tcTables nBuf tb) → BufTy
  | .hbm, ⟨0, _⟩ => ⟨S1171456x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S256x64, .f32⟩
  | .hbm, ⟨6, _⟩ => ⟨S64, .f32⟩
  | .hbm, ⟨7, _⟩ => ⟨S1126400, .i32⟩
  | .hbm, ⟨8, _⟩ => ⟨S1126400, .i32⟩
  | .hbm, ⟨9, _⟩ => ⟨S40960, .i32⟩
  | .hbm, ⟨10, _⟩ => ⟨S40960, .i32⟩
  | .hbm, ⟨11, _⟩ => ⟨S_, .i32⟩
  | .hbm, ⟨12, _⟩ => ⟨S1126400, .i32⟩
  | .hbm, ⟨13, _⟩ => ⟨S1126400, .i1⟩
  | .hbm, ⟨14, _⟩ => ⟨S_, .i32⟩
  | .hbm, ⟨15, _⟩ => ⟨S1126400, .i32⟩
  | .hbm, ⟨16, _⟩ => ⟨S1126400, .i32⟩
  | .hbm, ⟨17, _⟩ => ⟨S1126400, .i32⟩
  | .hbm, ⟨18, _⟩ => ⟨S1126400x1, .i32⟩
  | .hbm, ⟨19, _⟩ => ⟨S1126400x128, .f32⟩
  | .hbm, ⟨20, _⟩ => ⟨S_, .f32⟩
  | .hbm, ⟨21, _⟩ => ⟨S45056x128, .f32⟩
  | .hbm, ⟨22, _⟩ => ⟨S1126400x1, .i32⟩
  | .hbm, ⟨23, _⟩ => ⟨S45056x128, .f32⟩
  | .hbm, ⟨24, _⟩ => ⟨S_, .f32⟩
  | .hbm, ⟨25, _⟩ => ⟨S1126400, .f32⟩
  | .hbm, ⟨26, _⟩ => ⟨S_, .f32⟩
  | .hbm, ⟨27, _⟩ => ⟨S45056, .f32⟩
  | .hbm, ⟨28, _⟩ => ⟨S1126400x1, .i32⟩
  | .hbm, ⟨29, _⟩ => ⟨S45056, .f32⟩
  | .hbm, ⟨30, _⟩ => ⟨S45056x1, .f32⟩
  | .hbm, ⟨31, _⟩ => ⟨S45056x128, .f32⟩
  | .hbm, ⟨32, _⟩ => ⟨S1x256, .f32⟩
  | .hbm, ⟨33, _⟩ => ⟨S45056x256, .f32⟩
  | .hbm, ⟨34, _⟩ => ⟨S_, .i32⟩
  | .hbm, ⟨35, _⟩ => ⟨S40960, .i32⟩
  | .hbm, ⟨36, _⟩ => ⟨S40960, .i1⟩
  | .hbm, ⟨37, _⟩ => ⟨S_, .i32⟩
  | .hbm, ⟨38, _⟩ => ⟨S40960, .i32⟩
  | .hbm, ⟨39, _⟩ => ⟨S40960, .i32⟩
  | .hbm, ⟨40, _⟩ => ⟨S40960, .i32⟩
  | .hbm, ⟨41, _⟩ => ⟨S40960x1, .i32⟩
  | .hbm, ⟨42, _⟩ => ⟨S40960x256, .f32⟩
  | .hbm, ⟨43, _⟩ => ⟨S_, .f32⟩
  | .hbm, ⟨44, _⟩ => ⟨S4096x256, .f32⟩
  | .hbm, ⟨45, _⟩ => ⟨S40960x1, .i32⟩
  | .hbm, ⟨46, _⟩ => ⟨S4096x256, .f32⟩
  | .hbm, ⟨47, _⟩ => ⟨S_, .f32⟩
  | .hbm, ⟨48, _⟩ => ⟨S40960, .f32⟩
  | .hbm, ⟨49, _⟩ => ⟨S_, .f32⟩
  | .hbm, ⟨50, _⟩ => ⟨S4096, .f32⟩
  | .hbm, ⟨51, _⟩ => ⟨S40960x1, .i32⟩
  | .hbm, ⟨52, _⟩ => ⟨S4096, .f32⟩
  | .hbm, ⟨53, _⟩ => ⟨S4096x1, .f32⟩
  | .hbm, ⟨54, _⟩ => ⟨S4096x256, .f32⟩
  | .hbm, ⟨55, _⟩ => ⟨S1x64, .f32⟩
  | .hbm, ⟨56, _⟩ => ⟨S4096x64, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S2048x128, .f32⟩
  | .local _ .vmem, ⟨5, _⟩ => ⟨S2048x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S256x64, .f32⟩
  | .local _ .vmem, ⟨18, _⟩ => ⟨S256x64, .f32⟩
  | .local _ .vmem, ⟨19, _⟩ => ⟨S1x64, .f32⟩
  | .local _ .vmem, ⟨20, _⟩ => ⟨S1024x64, .f32⟩
  | .local _ .vmem, ⟨21, _⟩ => ⟨S1024x64, .f32⟩
  | _, _ => ⟨S1171456x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_cst_1 : Ref sig .tc := ⟨.hbm, 24, rfl⟩
abbrev main_call0_v10 : Ref sig .tc := ⟨.hbm, 25, rfl⟩
abbrev main_call0_cst_2 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_c_3 : Ref sig .tc := ⟨.hbm, 34, rfl⟩
abbrev main_call0_v18 : Ref sig .tc := ⟨.hbm, 35, rfl⟩
abbrev main_call0_v19 : Ref sig .tc := ⟨.hbm, 36, rfl⟩
abbrev main_call0_c_4 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_cst_5 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_cst_6 : Ref sig .tc := ⟨.hbm, 47, rfl⟩
abbrev main_call0_v28 : Ref sig .tc := ⟨.hbm, 48, rfl⟩
abbrev main_call0_cst_7 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S45056x128 : S_.BroadcastsInDim S45056x128 (![] : Fin 0 → Fin S45056x128.rank)
  bcast_S_S45056 : S_.BroadcastsInDim S45056 (![] : Fin 0 → Fin S45056.rank)
  shapeCasts_S45056_S45056x1 : S45056.ShapeCasts S45056x1
  slices_S1171456x128_S45056x128_0_0 : S1171456x128.Slices ![0, 0] S45056x128
  shapeCasts_S256_S1x256 : S256.ShapeCasts S1x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  shapeCasts_S4096_S4096x1 : S4096.ShapeCasts S4096x1
  slices_S45056x256_S4096x256_0_0 : S45056x256.Slices ![0, 0] S4096x256
  shapeCasts_S64_S1x64 : S64.ShapeCasts S1x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  gather_S1171456x128_S1126400x1_S1126400x128_1_0_n_n_0_1_1128_wf : GatherDims.WF S1171456x128 S1126400x1 S1126400x128 [1] [0] [] [0] [] 1 ![1, 128]
  scatter_S45056x128_S1126400x1_S1126400x128_1_0_0_1_wf : ScatterDims.WF S45056x128 S1126400x1 S1126400x128 [1] [0] [0] 1
  scatter_S45056_S1126400x1_S1126400_n_0_0_1_wf : ScatterDims.WF S45056 S1126400x1 S1126400 [] [0] [0] 1
  gather_S45056x256_S40960x1_S40960x256_1_0_n_n_0_1_1256_wf : GatherDims.WF S45056x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S2048x128_S128x256_S2048x256_1_0_0_1_n_n_wf : DotDims.WF S2048x128 S128x256 S2048x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S45056x128.size a
  hwx0_0 : ∀ i : grid0.Coords, EltTy.bits .f32 = 32 ∨ (Rect.block (s := S45056x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S45056x1.size a
  hwx0_1 : ∀ i : grid0.Coords, EltTy.bits .f32 = 32 ∨ (Rect.block (s := S45056x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S45056x128.size a
  hwx0_2 : ∀ i : grid0.Coords, EltTy.bits .f32 = 32 ∨ (Rect.block (s := S45056x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S45056x256.size a
  hwx0_6 : ∀ i : grid0.Coords, EltTy.bits .f32 = 32 ∨ (Rect.block (s := S45056x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S4096x64.size a
  hwx1_6 : ∀ i : grid1.Coords, EltTy.bits .f32 = 32 ∨ (Rect.block (s := S4096x64) S1024x64.size (cc1_transform_6 i) (hinb1_6 i)).WholeWords (EltTy.packing .f32)

variable [Facts₀]

def gather_S1171456x128_S1126400x1_S1126400x128_1_0_n_n_0_1_1128 : GatherDims S1171456x128 S1126400x1 S1126400x128 where
  offsetDims := [1]
  collapsedSliceDims := [0]
  operandBatchingDims := []
  startIndicesBatchingDims := []
  startIndexMap := [0]
  indexVectorDim := 1
  sliceSizes := ![1, 128]
  wf := gather_S1171456x128_S1126400x1_S1126400x128_1_0_n_n_0_1_1128_wf
def scatter_S45056x128_S1126400x1_S1126400x128_1_0_0_1 : ScatterDims S45056x128 S1126400x1 S1126400x128 where
  updateWindowDims := [1]
  insertedWindowDims := [0]
  scatterDimsToOperandDims := [0]
  indexVectorDim := 1
  wf := scatter_S45056x128_S1126400x1_S1126400x128_1_0_0_1_wf
def scatter_S45056_S1126400x1_S1126400_n_0_0_1 : ScatterDims S45056 S1126400x1 S1126400 where
  updateWindowDims := []
  insertedWindowDims := [0]
  scatterDimsToOperandDims := [0]
  indexVectorDim := 1
  wf := scatter_S45056_S1126400x1_S1126400_n_0_0_1_wf
def gather_S45056x256_S40960x1_S40960x256_1_0_n_n_0_1_1256 : GatherDims S45056x256 S40960x1 S40960x256 where
  offsetDims := [1]
  collapsedSliceDims := [0]
  operandBatchingDims := []
  startIndicesBatchingDims := []
  startIndexMap := [0]
  indexVectorDim := 1
  sliceSizes := ![1, 256]
  wf := gather_S45056x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_call0_v9) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v17) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v27) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v32) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v33) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S45056x128 : Shape := ⟨2, ![45056, 128]⟩
abbrev S_ : Shape := ⟨0, ![]⟩
abbrev S1126400x1 : Shape := ⟨2, ![1126400, 1]⟩
abbrev S1126400x128 : Shape := ⟨2, ![1126400, 128]⟩
abbrev S45056 : Shape := ⟨1, ![45056]⟩
abbrev S45056x1 : Shape := ⟨2, ![45056, 1]⟩
abbrev S45056x256 : Shape := ⟨2, ![45056, 256]⟩
abbrev S1x256 : Shape := ⟨2, ![1, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S1171456x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S256x64, .f32⟩
  | .hbm, ⟨6, _⟩ => ⟨S64, .f32⟩
  | .hbm, ⟨7, _⟩ => ⟨S1126400, .i32⟩
  | .hbm, ⟨8, _⟩ => ⟨S1126400, .i32⟩
  | .hbm, ⟨9, _⟩ => ⟨S40960, .i32⟩
  | .hbm, ⟨10, _⟩ => ⟨S40960, .i32⟩
  | .hbm, ⟨11, _⟩ => ⟨S45056x128, .f32⟩
  | .hbm, ⟨12, _⟩ => ⟨S_, .i32⟩
  | .hbm, ⟨13, _⟩ => ⟨S1126400, .i32⟩
  | .hbm, ⟨14, _⟩ => ⟨S1126400, .i1⟩
  | .hbm, ⟨15, _⟩ => ⟨S_, .i32⟩
  | .hbm, ⟨16, _⟩ => ⟨S1126400, .i32⟩
  | .hbm, ⟨17, _⟩ => ⟨S1126400, .i32⟩
  | .hbm, ⟨18, _⟩ => ⟨S1126400, .i32⟩
  | .hbm, ⟨19, _⟩ => ⟨S1126400x1, .i32⟩
  | .hbm, ⟨20, _⟩ => ⟨S1126400x128, .f32⟩
  | .hbm, ⟨21, _⟩ => ⟨S_, .f32⟩
  | .hbm, ⟨22, _⟩ => ⟨S45056x128, .f32⟩
  | .hbm, ⟨23, _⟩ => ⟨S1126400x1, .i32⟩
  | .hbm, ⟨24, _⟩ => ⟨S45056x128, .f32⟩
  | .hbm, ⟨25, _⟩ => ⟨S_, .f32⟩
  | .hbm, ⟨26, _⟩ => ⟨S1126400, .f32⟩
  | .hbm, ⟨27, _⟩ => ⟨S_, .f32⟩
  | .hbm, ⟨28, _⟩ => ⟨S45056, .f32⟩
  | .hbm, ⟨29, _⟩ => ⟨S1126400x1, .i32⟩
  | .hbm, ⟨30, _⟩ => ⟨S45056, .f32⟩
  | .hbm, ⟨31, _⟩ => ⟨S_, .f32⟩
  | .hbm, ⟨32, _⟩ => ⟨S45056, .f32⟩
  | .hbm, ⟨33, _⟩ => ⟨S45056, .f32⟩
  | .hbm, ⟨34, _⟩ => ⟨S45056x1, .f32⟩
  | .hbm, ⟨35, _⟩ => ⟨S45056x128, .f32⟩
  | .hbm, ⟨36, _⟩ => ⟨S45056x128, .f32⟩
  | .hbm, ⟨37, _⟩ => ⟨S45056x256, .f32⟩
  | .hbm, ⟨38, _⟩ => ⟨S45056x256, .f32⟩
  | .hbm, ⟨39, _⟩ => ⟨S45056x256, .f32⟩
  | .hbm, ⟨40, _⟩ => ⟨S1x256, .f32⟩
  | .hbm, ⟨41, _⟩ => ⟨S45056x256, .f32⟩
  | .hbm, ⟨42, _⟩ => ⟨S45056x256, .f32⟩
  | .hbm, ⟨43, _⟩ => ⟨S_, .f32⟩
  | .hbm, ⟨44, _⟩ => ⟨S45056x256, .f32⟩
  | .hbm, ⟨45, _⟩ => ⟨S45056x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S1x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1, .f32⟩
  | .hbm, ⟨91, _⟩ => ⟨S4096x64, .f32⟩
  | .hbm, ⟨92, _⟩ => ⟨S4096x64, .f32⟩
  | _, _ => ⟨S1171456x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S1171456x128_S45056x128_0_0 : S1171456x128.Slices ![0, 0] S45056x128
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S45056x128 : S_.BroadcastsInDim S45056x128 (![] : Fin 0 → Fin S45056x128.rank)
  bcast_S_S45056 : S_.BroadcastsInDim S45056 (![] : Fin 0 → Fin S45056.rank)
  bcast_S45056_S45056x1_0 : S45056.BroadcastsInDim S45056x1 (![0] : Fin 1 → Fin S45056x1.rank)
  bcast_S45056x1_S45056x128_0_1 : S45056x1.BroadcastsInDim S45056x128 (![0, 1] : Fin 2 → Fin S45056x128.rank)
  bcast_S256_S1x256_1 : S256.BroadcastsInDim S1x256 (![1] : Fin 1 → Fin S1x256.rank)
  bcast_S1x256_S45056x256_0_1 : S1x256.BroadcastsInDim S45056x256 (![0, 1] : Fin 2 → Fin S45056x256.rank)
  bcast_S_S45056x256 : S_.BroadcastsInDim S45056x256 (![] : Fin 0 → Fin S45056x256.rank)
  slices_S45056x256_S4096x256_0_0 : S45056x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  gather_S1171456x128_S1126400x1_S1126400x128_1_0_n_n_0_1_1128_wf : GatherDims.WF S1171456x128 S1126400x1 S1126400x128 [1] [0] [] [0] [] 1 ![1, 128]
  scatter_S45056x128_S1126400x1_S1126400x128_1_0_0_1_wf : ScatterDims.WF S45056x128 S1126400x1 S1126400x128 [1] [0] [0] 1
  scatter_S45056_S1126400x1_S1126400_n_0_0_1_wf : ScatterDims.WF S45056 S1126400x1 S1126400 [] [0] [0] 1
  dot_S45056x128_S128x256_S45056x256_1_0_0_1_n_n_wf : DotDims.WF S45056x128 S128x256 S45056x256 [1] [0] [0] [1] [] []
  gather_S45056x256_S40960x1_S40960x256_1_0_n_n_0_1_1256_wf : GatherDims.WF S45056x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x64_S4096x64_1_0_0_1_n_n_wf : DotDims.WF S4096x256 S256x64 S4096x64 [1] [0] [0] [1] [] []

variable [Facts₀]

def gather_S1171456x128_S1126400x1_S1126400x128_1_0_n_n_0_1_1128 : GatherDims S1171456x128 S1126400x1 S1126400x128 where
  offsetDims := [1]
  collapsedSliceDims := [0]
  operandBatchingDims := []
  startIndicesBatchingDims := []
  startIndexMap := [0]
  indexVectorDim := 1
  sliceSizes := ![1, 128]
  wf := gather_S1171456x128_S1126400x1_S1126400x128_1_0_n_n_0_1_1128_wf
def scatter_S45056x128_S1126400x1_S1126400x128_1_0_0_1 : ScatterDims S45056x128 S1126400x1 S1126400x128 where
  updateWindowDims := [1]
  insertedWindowDims := [0]
  scatterDimsToOperandDims := [0]
  indexVectorDim := 1
  wf := scatter_S45056x128_S1126400x1_S1126400x128_1_0_0_1_wf
def scatter_S45056_S1126400x1_S1126400_n_0_0_1 : ScatterDims S45056 S1126400x1 S1126400 where
  updateWindowDims := []
  insertedWindowDims := [0]
  scatterDimsToOperandDims := [0]
  indexVectorDim := 1
  wf := scatter_S45056_S1126400x1_S1126400_n_0_0_1_wf
def dot_S45056x128_S128x256_S45056x256_1_0_0_1_n_n : DotDims S45056x128 S128x256 S45056x256 where
  lhsContracting := [1]
  rhsContracting := [0]
  lhsNonContracting := [0]
  rhsNonContracting := [1]
  lhsBatch := []
  rhsBatch := []
  wf := dot_S45056x128_S128x256_S45056x256_1_0_0_1_n_n_wf
def gather_S45056x256_S40960x1_S40960x256_1_0_n_n_0_1_1256 : GatherDims S45056x256 S40960x1 S40960x256 where
  offsetDims := [1]
  collapsedSliceDims := [0]
  operandBatchingDims := []
  startIndicesBatchingDims := []
  startIndexMap := [0]
  indexVectorDim := 1
  sliceSizes := ![1, 256]
  wf := gather_S45056x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.RefKept.lean ====
/-
  The reference program's eleven argument buffers after its whole list of host operations: no operation writes an
  argument, so reading one back through the fold of the operations' results walks past every operation to the launch
  memory. Also the one structural fact about that fold used to read the result: the fold over a list in two pieces is
  the fold over the second piece from the contents the first piece leaves.
-/
import proofs.«182186_j74148315398467_2_alg».proof.Proof.RunP

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Running two lists of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## Every argument ends as launched -/

theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

theorem kept_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

theorem kept_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

theorem kept_arg8 (m : (ℓ : Loc nD τ sig) → Buf (Elt F) ℓ) (c : Dev nD) :
    after (ops (F := F)) (launchContents m c) (Proc.devRef .tc main_arg8) = m ((c.tc : Thread nD τ).loc main_arg8) := by
  after_results_simp <;> rfl

theorem kept_arg9 (m : (ℓ : Loc nD τ sig) → Buf (Elt F) ℓ) (c : Dev nD) :
    after (ops (F := F)) (launchContents m c) (Proc.devRef .tc main_arg9) = m ((c.tc : Thread nD τ).loc main_arg9) := by
  after_results_simp <;> rfl

theorem kept_arg10 (m : (ℓ : Loc nD τ sig) → Buf (Elt F) ℓ) (c : Dev nD) :
    after (ops (F := F)) (launchContents m c) (Proc.devRef .tc main_arg10) = m ((c.tc : Thread nD τ).loc main_arg10) := by
  after_results_simp <;> rfl

end Cert.ReferenceIdeal.RefRun

end
-- ==== Proof.RefRun.lean ====
/-
  The reference's run, read back piece by piece.

  The reference is a straight line of 82 host operations. Operations 1–35 are the first layer (the neighbour sums and
  counts by gather and scatter-add, the combine stage, the cut-off at zero) and end in the buffer of the layer's output.
  Operations 36–67 are the second layer's combine stage, which reads that buffer in two places (the gather for the
  neighbour sums, the slice for the rows' own features) and ends in one buffer. Operations 68–82 are the row-wise
  log-softmax of that buffer, which reads it four times (directly, under the row maximum, and both again under the
  exponential). Read as ONE term the result repeats the combine stage four times and the first layer eight times; read
  in three pieces nothing is repeated: each piece, run from any contents, leaves in its last buffer its stage of what
  the earlier pieces' last buffers and the arguments hold. Chained, the result buffer holds the last stage of the
  arguments.
-/
import proofs.«182186_j74148315398467_2_alg».proof.Proof.RunP
import proofs.«182186_j74148315398467_2_alg».proof.Proof.ReadP
import proofs.«182186_j74148315398467_2_alg».proof.Proof.RefKept

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo
open Cert.ReferenceIdeal.Read

variable {F : FTy → Type} [FloatOps F]

/-! ## Operations 1–35: the first layer -/

/-- After the first layer's operations its output buffer holds the layer's stage of the arguments. -/
theorem first_v26 (W : Valuation τ sig (Elt F)) :
    after ((ops (F := F)).take 35) W (Proc.devRef .tc main_v26)
      = val_main_v26 (F := F) (W (Proc.devRef .tc main_arg0)) (W (Proc.devRef .tc main_arg1)) (W (Proc.devRef .tc main_arg2)) (W (Proc.devRef .tc main_arg3)) (W (Proc.devRef .tc main_arg7)) (W (Proc.devRef .tc main_arg8)) := by
  simp only [ops, List.take_succ_cons, List.take_zero]
  after_results_simp
  rfl

/-! The arguments the second layer reads are untouched by the first layer's operations. -/

theorem first_arg4 (W : Valuation τ sig (Elt F)) :
    after ((ops (F := F)).take 35) W (Proc.devRef .tc main_arg4) = W (Proc.devRef .tc main_arg4) := by
  simp only [ops, List.take_succ_cons, List.take_zero]
  after_results_simp <;> rfl

theorem first_arg5 (W : Valuation τ sig (Elt F)) :
    after ((ops (F := F)).take 35) W (Proc.devRef .tc main_arg5) = W (Proc.devRef .tc main_arg5) := by
  simp only [ops, List.take_succ_cons, List.take_zero]
  after_results_simp <;> rfl

theorem first_arg6 (W : Valuation τ sig (Elt F)) :
    after ((ops (F := F)).take 35) W (Proc.devRef .tc main_arg6) = W (Proc.devRef .tc main_arg6) := by
  simp only [ops, List.take_succ_cons, List.take_zero]
  after_results_simp <;> rfl

theorem first_arg9 (W : Valuation τ sig (Elt F)) :
    after ((ops (F := F)).take 35) W (Proc.devRef .tc main_arg9) = W (Proc.devRef .tc main_arg9) := by
  simp only [ops, List.take_succ_cons, List.take_zero]
  after_results_simp <;> rfl

theorem first_arg10 (W : Valuation τ sig (Elt F)) :
    after ((ops (F := F)).take 35) W (Proc.devRef .tc main_arg10) = W (Proc.devRef .tc main_arg10) := by
  simp only [ops, List.take_succ_cons, List.take_zero]
  after_results_simp <;> rfl

/-! ## Operations 36–67: the second layer's combine stage -/

/-- From any contents `W'` whose first-layer output buffer holds the first layer's stage of the arguments and whose
    second-layer arguments are the launch ones, operations 36–67 leave the combine stage of the arguments in its buffer. -/
theorem mid_v52 (W W' : Valuation τ sig (Elt F))
    (h26 : W' (Proc.devRef .tc main_v26) = val_main_v26 (F := F) (W (Proc.devRef .tc main_arg0)) (W (Proc.devRef .tc main_arg1)) (W (Proc.devRef .tc main_arg2)) (W (Proc.devRef .tc main_arg3)) (W (Proc.devRef .tc main_arg7)) (W (Proc.devRef .tc main_arg8)))
    (h4 : W' (Proc.devRef .tc main_arg4) = W (Proc.devRef .tc main_arg4))
    (h5 : W' (Proc.devRef .tc main_arg5) = W (Proc.devRef .tc main_arg5))
    (h6 : W' (Proc.devRef .tc main_arg6) = W (Proc.devRef .tc main_arg6))
    (h9 : W' (Proc.devRef .tc main_arg9) = W (Proc.devRef .tc main_arg9))
    (h10 : W' (Proc.devRef .tc main_arg10) = W (Proc.devRef .tc main_arg10)) :
    after (((ops (F := F)).drop 35).take 32) W' (Proc.devRef .tc main_v52)
      = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  simp only [ops, List.drop_succ_cons, List.drop_zero, List.take_succ_cons, List.take_zero]
  after_results_simp
  rw [h26, h4, h5, h6, h9, h10]
  rfl

/-! ## Operations 68–82: the log-softmax

The log-softmax is a function the program calls, and a called function names each buffer with the type of the value it
holds there. The buffer's own type IS that type, so carrying contents across (either way) is the identity: one
equation per buffer and direction. -/

theorem ofBuf_v52 (v : (⟨S4096x64, .f32⟩ : BufTy).Contents (Elt F)) :
    (TRef.of main_v52 : TRef sig ⟨S4096x64, .f32⟩).ofBuf (Val := Elt F) v = v := rfl
theorem toBuf_call1_cst (v : (⟨S_, .f32⟩ : BufTy).Contents (Elt F)) :
    (TRef.of main_call1_cst : TRef sig ⟨S_, .f32⟩).toBuf v = v := rfl
theorem ofBuf_call1_cst (v : (⟨S_, .f32⟩ : BufTy).Contents (Elt F)) :
    (TRef.of main_call1_cst : TRef sig ⟨S_, .f32⟩).ofBuf (Val := Elt F) v = v := rfl
theorem toBuf_call1_v0 (v : (⟨S4096, .f32⟩ : BufTy).Contents (Elt F)) :
    (TRef.of main_call1_v0 : TRef sig ⟨S4096, .f32⟩).toBuf v = v := rfl
theorem ofBuf_call1_v0 (v : (⟨S4096, .f32⟩ : BufTy).Contents (Elt F)) :
    (TRef.of main_call1_v0 : TRef sig ⟨S4096, .f32⟩).ofBuf (Val := Elt F) v = v := rfl
theorem toBuf_call1_cst_0 (v : (⟨S_, .f32⟩ : BufTy).Contents (Elt F)) :
    (TRef.of main_call1_cst_0 : TRef sig ⟨S_, .f32⟩).toBuf v = v := rfl
theorem ofBuf_call1_cst_0 (v : (⟨S_, .f32⟩ : BufTy).Contents (Elt F)) :
    (TRef.of main_call1_cst_0 : TRef sig ⟨S_, .f32⟩).ofBuf (Val := Elt F) v = v := rfl
theorem toBuf_call1_v1 (v : (⟨S4096, .f32⟩ : BufTy).Contents (Elt F)) :
    (TRef.of main_call1_v1 : TRef sig ⟨S4096, .f32⟩).toBuf v = v := rfl
theorem ofBuf_call1_v1 (v : (⟨S4096, .f32⟩ : BufTy).Contents (Elt F)) :
    (TRef.of main_call1_v1 : TRef sig ⟨S4096, .f32⟩).ofBuf (Val := Elt F) v = v := rfl
theorem toBuf_call1_v2 (v : (⟨S4096, .f32⟩ : BufTy).Contents (Elt F)) :
    (TRef.of main_call1_v2 : TRef sig ⟨S4096, .f32⟩).toBuf v = v := rfl
theorem ofBuf_call1_v2 (v : (⟨S4096, .f32⟩ : BufTy).Contents (Elt F)) :
    (TRef.of main_call1_v2 : TRef sig ⟨S4096, .f32⟩).ofBuf (Val := Elt F) v = v := rfl
theorem toBuf_call1_v3 (v : (⟨S4096x1, .f32⟩ : BufTy).Contents (Elt F)) :
    (TRef.of main_call1_v3 : TRef sig ⟨S4096x1, .f32⟩).toBuf v = v := rfl
theorem ofBuf_call1_v3 (v : (⟨S4096x1, .f32⟩ : BufTy).Contents (Elt F)) :
    (TRef.of main_call1_v3 : TRef sig ⟨S4096x1, .f32⟩).ofBuf (Val := Elt F) v = v := rfl
theorem toBuf_call1_v4 (v : (⟨S4096x64, .f32⟩ : BufTy).Contents (Elt F)) :
    (TRef.of main_call1_v4 : TRef sig ⟨S4096x64, .f32⟩).toBuf v = v := rfl
theorem ofBuf_call1_v4 (v : (⟨S4096x64, .f32⟩ : BufTy).Contents (Elt F)) :
    (TRef.of main_call1_v4 : TRef sig ⟨S4096x64, .f32⟩).ofBuf (Val := Elt F) v = v := rfl
theorem toBuf_call1_v5 (v : (⟨S4096x64, .f32⟩ : BufTy).Contents (Elt F)) :
    (TRef.of main_call1_v5 : TRef sig ⟨S4096x64, .f32⟩).toBuf v = v := rfl
theorem ofBuf_call1_v5 (v : (⟨S4096x64, .f32⟩ : BufTy).Contents (Elt F)) :
    (TRef.of main_call1_v5 : TRef sig ⟨S4096x64, .f32⟩).ofBuf (Val := Elt F) v = v := rfl
theorem toBuf_call1_v6 (v : (⟨S4096x64, .f32⟩ : BufTy).Contents (Elt F)) :
    (TRef.of main_call1_v6 : TRef sig ⟨S4096x64, .f32⟩).toBuf v = v := rfl
theorem ofBuf_call1_v6 (v : (⟨S4096x64, .f32⟩ : BufTy).Contents (Elt F)) :
    (TRef.of main_call1_v6 : TRef sig ⟨S4096x64, .f32⟩).ofBuf (Val := Elt F) v = v := rfl
theorem toBuf_call1_cst_1 (v : (⟨S_, .f32⟩ : BufTy).Contents (Elt F)) :
    (TRef.of main_call1_cst_1 : TRef sig ⟨S_, .f32⟩).toBuf v = v := rfl
theorem ofBuf_call1_cst_1 (v : (⟨S_, .f32⟩ : BufTy).Contents (Elt F)) :
    (TRef.of main_call1_cst_1 : TRef sig ⟨S_, .f32⟩).ofBuf (Val := Elt F) v = v := rfl
theorem toBuf_call1_v7 (v : (⟨S4096, .f32⟩ : BufTy).Contents (Elt F)) :
    (TRef.of main_call1_v7 : TRef sig ⟨S4096, .f32⟩).toBuf v = v := rfl
theorem ofBuf_call1_v7 (v : (⟨S4096, .f32⟩ : BufTy).Contents (Elt F)) :
    (TRef.of main_call1_v7 : TRef sig ⟨S4096, .f32⟩).ofBuf (Val := Elt F) v = v := rfl
theorem toBuf_call1_v8 (v : (⟨S4096x1, .f32⟩ : BufTy).Contents (Elt F)) :
    (TRef.of main_call1_v8 : TRef sig ⟨S4096x1, .f32⟩).toBuf v = v := rfl
theorem ofBuf_call1_v8 (v : (⟨S4096x1, .f32⟩ : BufTy).Contents (Elt F)) :
    (TRef.of main_call1_v8 : TRef sig ⟨S4096x1, .f32⟩).ofBuf (Val := Elt F) v = v := rfl
theorem toBuf_call1_v9 (v : (⟨S4096x1, .f32⟩ : BufTy).Contents (Elt F)) :
    (TRef.of main_call1_v9 : TRef sig ⟨S4096x1, .f32⟩).toBuf v = v := rfl
theorem ofBuf_call1_v9 (v : (⟨S4096x1, .f32⟩ : BufTy).Contents (Elt F)) :
    (TRef.of main_call1_v9 : TRef sig ⟨S4096x1, .f32⟩).ofBuf (Val := Elt F) v = v := rfl
theorem toBuf_call1_v10 (v : (⟨S4096x64, .f32⟩ : BufTy).Contents (Elt F)) :
    (TRef.of main_call1_v10 : TRef sig ⟨S4096x64, .f32⟩).toBuf v = v := rfl
theorem ofBuf_call1_v10 (v : (⟨S4096x64, .f32⟩ : BufTy).Contents (Elt F)) :
    (TRef.of main_call1_v10 : TRef sig ⟨S4096x64, .f32⟩).ofBuf (Val := Elt F) v = v := rfl
theorem toBuf_v53 (v : (⟨S4096x64, .f32⟩ : BufTy).Contents (Elt F)) :
    (TRef.of main_v53 : TRef sig ⟨S4096x64, .f32⟩).toBuf v = v := rfl

/-- From any contents `W''` whose combine-stage buffer holds the combine stage of the arguments, the last fifteen
    operations leave the last stage of the arguments in the result buffer. -/
theorem tail_v53 (W W'' : Valuation τ sig (Elt F))
    (h52 : W'' (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) :
    after (((ops (F := F)).drop 35).drop 32) W'' (Proc.devRef .tc main_v53)
      = val_main_v53 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  simp only [ops, List.drop_succ_cons, List.drop_zero]
  after_results_simp
  simp only [ofBuf_v52, toBuf_call1_cst, ofBuf_call1_cst, toBuf_call1_v0, ofBuf_call1_v0, toBuf_call1_cst_0, ofBuf_call1_cst_0, toBuf_call1_v1, ofBuf_call1_v1, toBuf_call1_v2, ofBuf_call1_v2, toBuf_call1_v3, ofBuf_call1_v3, toBuf_call1_v4, ofBuf_call1_v4, toBuf_call1_v5, ofBuf_call1_v5, toBuf_call1_v6, ofBuf_call1_v6, toBuf_call1_cst_1, ofBuf_call1_cst_1, toBuf_call1_v7, ofBuf_call1_v7, toBuf_call1_v8, ofBuf_call1_v8, toBuf_call1_v9, ofBuf_call1_v9, toBuf_call1_v10, ofBuf_call1_v10, toBuf_v53]
  rw [h52]
  rfl

/-! ## All 82 operations -/

/-- After the whole line the result buffer holds the last stage of the arguments. -/
theorem result_eq (W : Valuation τ sig (Elt F)) :
    after (ops (F := F)) W (Proc.devRef .tc main_v53)
      = val_main_v53 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  have hcut1 := after_append ((ops (F := F)).take 35) ((ops (F := F)).drop 35) W
  rw [List.take_append_drop] at hcut1
  have hcut2 := after_append (((ops (F := F)).drop 35).take 32) (((ops (F := F)).drop 35).drop 32)
    (after ((ops (F := F)).take 35) W)
  rw [List.take_append_drop] at hcut2
  rw [hcut1, hcut2]
  exact tail_v53 W _ (mid_v52 W _ (first_v26 W) (first_arg4 W) (first_arg5 W) (first_arg6 W) (first_arg9 W) (first_arg10 W))

/-! ## The run -/

/-- On every device, from any memory with zero counters: every weakly fair execution of the reference terminates with
    the result buffer at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v53).trans (result_eq (launchContents m c)),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (run_seq scopedRefs_eq scopedSems_eq defs main (fun _ => ops) main_eq (fun _ => ops_sub) m ρ)

end Cert.ReferenceIdeal.RefRun

end
-- ==== Proof.SageSpec.lean ====
/-
  The mathematics both programs compute, written once over the extended reals.

  A SAGE layer takes, for every target row r, the sum s(r, ·) of its neighbours' feature rows and the number cnt(r) of
  those neighbours, and the row's own features xt(r, ·).  The combine stage is

      a(r, q) = ( Σ_k  s(r,k) / max(cnt(r), 1) · Wl(k,q)  +  Σ_k  xt(r,k) · Wr(k,q) ) + b(q).

  The first layer ends in max(a, 0); the second in the row-wise log-softmax written with the row maximum taken out:
  z = a − max_q a(r,q),  result = z − log Σ_q exp z(r,q).

  Row r of either result depends on row r of s, cnt and xt only.  That is the whole reason a kernel may compute the layer
  one block of rows at a time: the layer of the blocks is the block of the layer (`combine_row` and its two corollaries).
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Sage

open Idealize.ShloMosaic Idealize.ShloMosaic.ValueIdx
open scoped BigOperators

/-- The combine stage at row `r`, column `q`: the neighbour sum over the count clamped below at one, through `Wl`; the
    row's own features through `Wr`; the bias. The literal is the float 1.0, kept as its word. -/
def combine {R K N : ℕ} (s : (⟨2, ![R, K]⟩ : Shape).Idx → EReal) (cnt : Fin R → EReal)
    (xt : (⟨2, ![R, K]⟩ : Shape).Idx → EReal) (Wl Wr : (⟨2, ![K, N]⟩ : Shape).Idx → EReal) (b : Fin N → EReal)
    (r : Fin R) (q : Fin N) : EReal :=
  (∑ k : Fin K, Ideal.div (s (ix2 r k)) (max (cnt r) (Ideal.ofBits .f32 0x3F800000#32)) * Wl (ix2 k q)
    + ∑ k : Fin K, xt (ix2 r k) * Wr (ix2 k q)) + b q

/-- The first layer: the combine stage cut off below at the float 0.0. -/
def reluLayer {R K N : ℕ} (s : (⟨2, ![R, K]⟩ : Shape).Idx → EReal) (cnt : Fin R → EReal)
    (xt : (⟨2, ![R, K]⟩ : Shape).Idx → EReal) (Wl Wr : (⟨2, ![K, N]⟩ : Shape).Idx → EReal) (b : Fin N → EReal) :
    (⟨2, ![R, N]⟩ : Shape).Idx → EReal :=
  fun i => max (combine s cnt xt Wl Wr b (i 0) (i 1)) (Ideal.ofBits .f32 0x00000000#32)

/-- The log-softmax of one row `a`, at column `q`: the row's maximum (a fold of `max` from the float −∞) is taken out
    first, then the logarithm of the sum of the exponentials. -/
def lsmRow {N : ℕ} (a : Fin N → EReal) (q : Fin N) : EReal :=
  (a q - (Finset.univ : Finset (Fin N)).fold max (Ideal.ofBits .f32 0xFF800000#32) a)
    - Ideal.log (∑ j : Fin N, Ideal.exp (a j - (Finset.univ : Finset (Fin N)).fold max (Ideal.ofBits .f32 0xFF800000#32) a))

/-- The second layer: the row-wise log-softmax of the combine stage. -/
def logSoftmaxLayer {R K N : ℕ} (s : (⟨2, ![R, K]⟩ : Shape).Idx → EReal) (cnt : Fin R → EReal)
    (xt : (⟨2, ![R, K]⟩ : Shape).Idx → EReal) (Wl Wr : (⟨2, ![K, N]⟩ : Shape).Idx → EReal) (b : Fin N → EReal) :
    (⟨2, ![R, N]⟩ : Shape).Idx → EReal :=
  fun i => lsmRow (combine s cnt xt Wl Wr b (i 0)) (i 1)

/-- Row `r` of the combine stage reads row `r` of `s`, `cnt` and `xt` and nothing else of them: two triples that agree on
    one row (possibly at different row numbers of arrays of different heights) give the same value there. -/
theorem combine_row {R R' K N : ℕ} {s : (⟨2, ![R, K]⟩ : Shape).Idx → EReal} {cnt : Fin R → EReal}
    {xt : (⟨2, ![R, K]⟩ : Shape).Idx → EReal} {s' : (⟨2, ![R', K]⟩ : Shape).Idx → EReal} {cnt' : Fin R' → EReal}
    {xt' : (⟨2, ![R', K]⟩ : Shape).Idx → EReal} (Wl Wr : (⟨2, ![K, N]⟩ : Shape).Idx → EReal) (b : Fin N → EReal)
    (r : Fin R) (r' : Fin R') (hs : ∀ k, s (ix2 r k) = s' (ix2 r' k)) (hc : cnt r = cnt' r')
    (hx : ∀ k, xt (ix2 r k) = xt' (ix2 r' k)) (q : Fin N) :
    combine s cnt xt Wl Wr b r q = combine s' cnt' xt' Wl Wr b r' q := by
  unfold combine
  rw [hc]
  simp only [hs, hx]

/-- So the first layer of the one row is the same. -/
theorem reluLayer_row {R R' K N : ℕ} {s : (⟨2, ![R, K]⟩ : Shape).Idx → EReal} {cnt : Fin R → EReal}
    {xt : (⟨2, ![R, K]⟩ : Shape).Idx → EReal} {s' : (⟨2, ![R', K]⟩ : Shape).Idx → EReal} {cnt' : Fin R' → EReal}
    {xt' : (⟨2, ![R', K]⟩ : Shape).Idx → EReal} (Wl Wr : (⟨2, ![K, N]⟩ : Shape).Idx → EReal) (b : Fin N → EReal)
    (r : Fin R) (r' : Fin R') (hs : ∀ k, s (ix2 r k) = s' (ix2 r' k)) (hc : cnt r = cnt' r')
    (hx : ∀ k, xt (ix2 r k) = xt' (ix2 r' k)) (q : Fin N) :
    reluLayer s cnt xt Wl Wr b (ix2 r q) = reluLayer s' cnt' xt' Wl Wr b (ix2 r' q) := by
  show max (combine s cnt xt Wl Wr b r q) _ = max (combine s' cnt' xt' Wl Wr b r' q) _
  rw [combine_row Wl Wr b r r' hs hc hx q]

/-- And the second layer of the one row: its whole combine row is the same function of the column. -/
theorem logSoftmaxLayer_row {R R' K N : ℕ} {s : (⟨2, ![R, K]⟩ : Shape).Idx → EReal} {cnt : Fin R → EReal}
    {xt : (⟨2, ![R, K]⟩ : Shape).Idx → EReal} {s' : (⟨2, ![R', K]⟩ : Shape).Idx → EReal} {cnt' : Fin R' → EReal}
    {xt' : (⟨2, ![R', K]⟩ : Shape).Idx → EReal} (Wl Wr : (⟨2, ![K, N]⟩ : Shape).Idx → EReal) (b : Fin N → EReal)
    (r : Fin R) (r' : Fin R') (hs : ∀ k, s (ix2 r k) = s' (ix2 r' k)) (hc : cnt r = cnt' r')
    (hx : ∀ k, xt (ix2 r k) = xt' (ix2 r' k)) (q : Fin N) :
    logSoftmaxLayer s cnt xt Wl Wr b (ix2 r q) = logSoftmaxLayer s' cnt' xt' Wl Wr b (ix2 r' q) := by
  show lsmRow (combine s cnt xt Wl Wr b r) q = lsmRow (combine s' cnt' xt' Wl Wr b r') q
  rw [show combine s cnt xt Wl Wr b r = combine s' cnt' xt' Wl Wr b r' from
    funext fun j => combine_row Wl Wr b r r' hs hc hx j]

/-- Taking the maximum of a fold of `max` with the fold's own starting value changes nothing: the fold is already at
    least its start. (The reference's log-softmax does exactly this with −∞ after its row maximum.) -/
theorem max_start_fold {ι : Type*} (t : Finset ι) (b : EReal) (f : ι → EReal) :
    max b (t.fold max b f) = t.fold max b f :=
  max_eq_right ((Finset.le_fold_max b).mpr (Or.inl le_rfl))

/-- A `[1, n]` row broadcast to `[a, n]` reads, at `(i, j)`, the row at `(0, j)`. -/
theorem broadcastTo_1n_an_apply {α : Type} {a n : ℕ} (v : (⟨2, ![1, n]⟩ : Shape).Idx → α)
    (h : (⟨2, ![1, n]⟩ : Shape).Broadcasts ⟨2, ![a, n]⟩) (i : Fin a) (j : Fin n) :
    broadcastTo ⟨2, ![a, n]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if n = 1 then 0 else j.val
    split
    · have := j.isLt; omega
    · rfl

end Cert.Sage

end
-- ==== Proof.HostLayer1.lean ====
/-
  The reference's layer 1 as host operations, of ARBITRARY arrays, read at one element.

  Given any neighbour sums s [45056,128], counts cnt [45056], own rows xt [45056,128], weights Wl, Wr [128,256] and bias
  b [256], the host computes: the count clamped below at one, made a column and broadcast along the row; s divided by
  it; that quotient and xt each through a dot_general with one contracted axis; the two products added; the bias made a
  row, broadcast down the column and added.  At row r and column q that is the combine stage
      ( Σ_k s(r,k) / max(cnt(r), 1) · Wl(k,q) + Σ_k xt(r,k) · Wr(k,q) ) + b(q).
  Nothing here looks inside s, cnt or xt: they are variables, and what the program feeds in is substituted afterwards.
-/
import proofs.«182186_j74148315398467_2_alg».proof.Proof.Gen.ReferenceIdeal
import proofs.«182186_j74148315398467_2_alg».proof.Proof.SageSpec
import Idealize.ShloMosaic.PureOps.Ideal.Laws
import Idealize.ShloMosaic.Lib.ValueIdx
import Idealize.ShloMosaic.Lib.Pipeline.Value

noncomputable section

namespace Cert.ReferenceIdeal.HostLayers

open Cert.ReferenceIdeal Cert.ReferenceIdeal.Gen Idealize.ShloMosaic Idealize.ShloMosaic.ValueIdx Cert.Sage
open scoped BigOperators

/-! ## The matrix product at an element -/

/-- The left operand's index keeps the output's row. -/
theorem lhs1_row (i : S45056x256.Idx) (c : dot_S45056x128_S128x256_S45056x256_1_0_0_1_n_n.contr.Idx) : (dot_S45056x128_S128x256_S45056x256_1_0_0_1_n_n.lhsIdx i c 0).val = (i 0).val := by
  unfold DotDims.lhsIdx
  rw [dif_neg (show ¬(0 : Fin S45056x128.rank) ∈ dot_S45056x128_S128x256_S45056x256_1_0_0_1_n_n.lhsBatch by decide),
    dif_pos (show (0 : Fin S45056x128.rank) ∈ dot_S45056x128_S128x256_S45056x256_1_0_0_1_n_n.lhsNonContracting by decide)]
  rfl

/-- The right operand's index keeps the output's column. -/
theorem rhs1_col (i : S45056x256.Idx) (c : dot_S45056x128_S128x256_S45056x256_1_0_0_1_n_n.contr.Idx) : (dot_S45056x128_S128x256_S45056x256_1_0_0_1_n_n.rhsIdx i c 1).val = (i 1).val := by
  unfold DotDims.rhsIdx
  rw [dif_neg (show ¬(1 : Fin S128x256.rank) ∈ dot_S45056x128_S128x256_S45056x256_1_0_0_1_n_n.rhsBatch by decide),
    dif_pos (show (1 : Fin S128x256.rank) ∈ dot_S45056x128_S128x256_S45056x256_1_0_0_1_n_n.rhsNonContracting by decide)]
  rfl

/-- The host's dot_general at row `r`, column `q`: the sum over the contracted axis (extent 128). -/
theorem dot1_apply (l : FVec Ideal S45056x128 .f32) (w : FVec Ideal S128x256 .f32) (r : Fin 45056) (q : Fin 256) :
    Host.dotGeneral dot_S45056x128_S128x256_S45056x256_1_0_0_1_n_n none l w (ix2 r q) = ∑ k : Fin 128, l (ix2 r k) * w (ix2 k q) := by
  simp only [Host.dotGeneral]
  rw [Ideal.dotGeneral_apply, ← Equiv.sum_comp (contrEquiv1 dot_S45056x128_S128x256_S45056x256_1_0_0_1_n_n 128 rfl rfl).symm]
  refine Finset.sum_congr rfl fun k _ => ?_
  have hk := contrEquiv1_symm_val dot_S45056x128_S128x256_S45056x256_1_0_0_1_n_n 128 rfl rfl k
  have el : dot_S45056x128_S128x256_S45056x256_1_0_0_1_n_n.lhsIdx (ix2 r q) ((contrEquiv1 dot_S45056x128_S128x256_S45056x256_1_0_0_1_n_n 128 rfl rfl).symm k) = ix2 r k :=
    funext fun a => Fin.ext (by
      match a with
      | ⟨0, _⟩ => exact lhs1_row _ _
      | ⟨1, _⟩ => exact (dot_S45056x128_S128x256_S45056x256_1_0_0_1_n_n.lhsIdx_val_of_single rfl _ _).trans hk)
  have er : dot_S45056x128_S128x256_S45056x256_1_0_0_1_n_n.rhsIdx (ix2 r q) ((contrEquiv1 dot_S45056x128_S128x256_S45056x256_1_0_0_1_n_n 128 rfl rfl).symm k) = ix2 k q :=
    funext fun a => Fin.ext (by
      match a with
      | ⟨0, _⟩ => exact (dot_S45056x128_S128x256_S45056x256_1_0_0_1_n_n.rhsIdx_val_of_single rfl _ _).trans hk
      | ⟨1, _⟩ => exact rhs1_col _ _)
  rw [el, er]

/-! ## The broadcasts at an element -/

/-- A vector made a column and broadcast along the row reads, at `(r, k)`, its entry `r`. -/
theorem colBcast1_apply (c : FVec Ideal S45056 .f32) (r : Fin 45056) (k : Fin 128) :
    broadcastInDim S45056x128 ![0, 1] bcast_S45056x1_S45056x128_0_1 (broadcastInDim S45056x1 ![0] bcast_S45056_S45056x1_0 c) (ix2 r k) = c (ix1 r) :=
  (broadcastInDim_apply _ bcast_S45056x1_S45056x128_0_1 _ (ix2 r k) (ix2 r (0 : Fin 1)) (fun a => match a with
    | ⟨0, _⟩ => by show r.val = if (45056 : Nat) = 1 then 0 else r.val; rw [if_neg (by decide)]
    | ⟨1, _⟩ => by show 0 = if (1 : Nat) = 1 then 0 else k.val; rw [if_pos rfl])).trans
  (broadcastInDim_apply _ bcast_S45056_S45056x1_0 c (ix2 r (0 : Fin 1)) (ix1 r) (fun a => match a with
    | ⟨0, _⟩ => by show r.val = if (45056 : Nat) = 1 then 0 else r.val; rw [if_neg (by decide)]))

/-- A vector made a row and broadcast down the column reads, at `(r, q)`, its entry `q`. -/
theorem rowBcast1_apply (b : FVec Ideal S256 .f32) (r : Fin 45056) (q : Fin 256) :
    broadcastInDim S45056x256 ![0, 1] bcast_S1x256_S45056x256_0_1 (broadcastInDim S1x256 ![1] bcast_S256_S1x256_1 b) (ix2 r q) = b (ix1 q) :=
  (broadcastInDim_apply _ bcast_S1x256_S45056x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans
  (broadcastInDim_apply _ bcast_S256_S1x256_1 b (ix2 (0 : Fin 1) q) (ix1 q) (fun a => match a with
    | ⟨0, _⟩ => by show q.val = if (256 : Nat) = 1 then 0 else q.val; rw [if_neg (by decide)]))

/-- The float 1.0 broadcast to a vector reads 1.0 everywhere. -/
theorem ones1_apply (i : S45056.Idx) :
    broadcastInDim S45056 ![] bcast_S_S45056 (constant (F := Ideal) S_ .f32 0x3F800000#32) i = Ideal.ofBits .f32 0x3F800000#32 :=
  broadcastInDim_apply _ bcast_S_S45056 _ i ix0 (fun a => a.elim0)

/-! ## The combine stage -/

/-- The combine stage as the host computes it, of arbitrary arrays. -/
def hostLin1 (s : FVec Ideal S45056x128 .f32) (cnt : FVec Ideal S45056 .f32) (xt : FVec Ideal S45056x128 .f32)
    (Wl Wr : FVec Ideal S128x256 .f32) (b : FVec Ideal S256 .f32) : FVec Ideal S45056x256 .f32 :=
  addf (addf (Host.dotGeneral dot_S45056x128_S128x256_S45056x256_1_0_0_1_n_n none
      (Host.divf s (broadcastInDim S45056x128 ![0, 1] bcast_S45056x1_S45056x128_0_1 (broadcastInDim S45056x1 ![0] bcast_S45056_S45056x1_0 (maximumf cnt (broadcastInDim S45056 ![] bcast_S_S45056 (constant (F := Ideal) S_ .f32 0x3F800000#32)))))) Wl)
    (Host.dotGeneral dot_S45056x128_S128x256_S45056x256_1_0_0_1_n_n none xt Wr))
    (broadcastInDim S45056x256 ![0, 1] bcast_S1x256_S45056x256_0_1 (broadcastInDim S1x256 ![1] bcast_S256_S1x256_1 b))

/-- At row `r`, column `q` it is the combine stage of the arrays. -/
theorem hostLin1_apply (s : FVec Ideal S45056x128 .f32) (cnt : FVec Ideal S45056 .f32) (xt : FVec Ideal S45056x128 .f32)
    (Wl Wr : FVec Ideal S128x256 .f32) (b : FVec Ideal S256 .f32) (r : Fin 45056) (q : Fin 256) :
    hostLin1 s cnt xt Wl Wr b (ix2 r q)
      = combine (R := 45056) (K := 128) (N := 256) s (fun r => cnt (ix1 r)) xt Wl Wr (fun j => b (ix1 j)) r q := by
  unfold hostLin1 combine
  show (Host.dotGeneral dot_S45056x128_S128x256_S45056x256_1_0_0_1_n_n none _ Wl (ix2 r q) + Host.dotGeneral dot_S45056x128_S128x256_S45056x256_1_0_0_1_n_n none xt Wr (ix2 r q))
      + broadcastInDim S45056x256 ![0, 1] bcast_S1x256_S45056x256_0_1 (broadcastInDim S1x256 ![1] bcast_S256_S1x256_1 b) (ix2 r q) = _
  rw [dot1_apply, dot1_apply, rowBcast1_apply]
  refine congrArg (· + b (ix1 q)) (congrArg (· + ∑ k : Fin 128, xt (ix2 r k) * Wr (ix2 k q))
    (Finset.sum_congr rfl fun k _ => congrArg (· * Wl (ix2 k q)) ?_))
  show Ideal.div (s (ix2 r k)) (broadcastInDim S45056x128 ![0, 1] bcast_S45056x1_S45056x128_0_1 (broadcastInDim S45056x1 ![0] bcast_S45056_S45056x1_0 (maximumf cnt (broadcastInDim S45056 ![] bcast_S_S45056 (constant (F := Ideal) S_ .f32 0x3F800000#32)))) (ix2 r k)) = _
  rw [colBcast1_apply]
  show Ideal.div (s (ix2 r k)) (max (cnt (ix1 r)) (broadcastInDim S45056 ![] bcast_S_S45056 (constant (F := Ideal) S_ .f32 0x3F800000#32) (ix1 r))) = _
  rw [ones1_apply]

/-! ## The first layer -/

/-- The first layer as the host computes it: the combine stage cut off below at the float 0.0 broadcast to the shape. -/
def hostRelu1 (s : FVec Ideal S45056x128 .f32) (cnt : FVec Ideal S45056 .f32) (xt : FVec Ideal S45056x128 .f32)
    (Wl Wr : FVec Ideal S128x256 .f32) (b : FVec Ideal S256 .f32) : FVec Ideal S45056x256 .f32 :=
  maximumf (hostLin1 s cnt xt Wl Wr b)
    (broadcastInDim S45056x256 ![] bcast_S_S45056x256 (constant (F := Ideal) S_ .f32 0x00000000#32))

/-- It is the first layer of the arrays. -/
theorem hostRelu1_eq (s : FVec Ideal S45056x128 .f32) (cnt : FVec Ideal S45056 .f32) (xt : FVec Ideal S45056x128 .f32)
    (Wl Wr : FVec Ideal S128x256 .f32) (b : FVec Ideal S256 .f32) :
    hostRelu1 s cnt xt Wl Wr b
      = reluLayer (R := 45056) (K := 128) (N := 256) s (fun r => cnt (ix1 r)) xt Wl Wr (fun j => b (ix1 j)) := by
  funext i
  obtain ⟨r, q, rfl⟩ : ∃ (r : Fin 45056) (q : Fin 256), i = ix2 r q := ⟨i 0, i 1, eq_ix2 i⟩
  show max (hostLin1 s cnt xt Wl Wr b (ix2 r q))
      (broadcastInDim S45056x256 ![] bcast_S_S45056x256 (constant (F := Ideal) S_ .f32 0x00000000#32) (ix2 r q))
    = max (combine (R := 45056) (K := 128) (N := 256) s (fun r => cnt (ix1 r)) xt Wl Wr (fun j => b (ix1 j)) r q)
      (Ideal.ofBits .f32 0x00000000#32)
  rw [hostLin1_apply, broadcastInDim_apply _ bcast_S_S45056x256 _ (ix2 r q) ix0 (fun a => a.elim0)]
  rfl

end Cert.ReferenceIdeal.HostLayers

end
-- ==== Proof.HostLayer2.lean ====
/-
  The reference's layer 2 as host operations, of ARBITRARY arrays, read at one element.

  Given any neighbour sums s [4096,256], counts cnt [4096], own rows xt [4096,256], weights Wl, Wr [256,64] and bias
  b [64], the host computes: the count clamped below at one, made a column and broadcast along the row; s divided by
  it; that quotient and xt each through a dot_general with one contracted axis; the two products added; the bias made a
  row, broadcast down the column and added.  At row r and column q that is the combine stage
      ( Σ_k s(r,k) / max(cnt(r), 1) · Wl(k,q) + Σ_k xt(r,k) · Wr(k,q) ) + b(q).
  Nothing here looks inside s, cnt or xt: they are variables, and what the program feeds in is substituted afterwards.
-/
import proofs.«182186_j74148315398467_2_alg».proof.Proof.Gen.ReferenceIdeal
import proofs.«182186_j74148315398467_2_alg».proof.Proof.SageSpec
import Idealize.ShloMosaic.PureOps.Ideal.Laws
import Idealize.ShloMosaic.Lib.ValueIdx
import Idealize.ShloMosaic.Lib.Pipeline.Value

noncomputable section

namespace Cert.ReferenceIdeal.HostLayers

open Cert.ReferenceIdeal Cert.ReferenceIdeal.Gen Idealize.ShloMosaic Idealize.ShloMosaic.ValueIdx Cert.Sage
open scoped BigOperators

/-! ## The matrix product at an element -/

/-- The left operand's index keeps the output's row. -/
theorem lhs2_row (i : S4096x64.Idx) (c : dot_S4096x256_S256x64_S4096x64_1_0_0_1_n_n.contr.Idx) : (dot_S4096x256_S256x64_S4096x64_1_0_0_1_n_n.lhsIdx i c 0).val = (i 0).val := by
  unfold DotDims.lhsIdx
  rw [dif_neg (show ¬(0 : Fin S4096x256.rank) ∈ dot_S4096x256_S256x64_S4096x64_1_0_0_1_n_n.lhsBatch by decide),
    dif_pos (show (0 : Fin S4096x256.rank) ∈ dot_S4096x256_S256x64_S4096x64_1_0_0_1_n_n.lhsNonContracting by decide)]
  rfl

/-- The right operand's index keeps the output's column. -/
theorem rhs2_col (i : S4096x64.Idx) (c : dot_S4096x256_S256x64_S4096x64_1_0_0_1_n_n.contr.Idx) : (dot_S4096x256_S256x64_S4096x64_1_0_0_1_n_n.rhsIdx i c 1).val = (i 1).val := by
  unfold DotDims.rhsIdx
  rw [dif_neg (show ¬(1 : Fin S256x64.rank) ∈ dot_S4096x256_S256x64_S4096x64_1_0_0_1_n_n.rhsBatch by decide),
    dif_pos (show (1 : Fin S256x64.rank) ∈ dot_S4096x256_S256x64_S4096x64_1_0_0_1_n_n.rhsNonContracting by decide)]
  rfl

/-- The host's dot_general at row `r`, column `q`: the sum over the contracted axis (extent 256). -/
theorem dot2_apply (l : FVec Ideal S4096x256 .f32) (w : FVec Ideal S256x64 .f32) (r : Fin 4096) (q : Fin 64) :
    Host.dotGeneral dot_S4096x256_S256x64_S4096x64_1_0_0_1_n_n none l w (ix2 r q) = ∑ k : Fin 256, l (ix2 r k) * w (ix2 k q) := by
  simp only [Host.dotGeneral]
  rw [Ideal.dotGeneral_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 r q) ((contrEquiv1 dot_S4096x256_S256x64_S4096x64_1_0_0_1_n_n 256 rfl rfl).symm k) = ix2 r k :=
    funext fun a => Fin.ext (by
      match a with
      | ⟨0, _⟩ => exact lhs2_row _ _
      | ⟨1, _⟩ => exact (dot_S4096x256_S256x64_S4096x64_1_0_0_1_n_n.lhsIdx_val_of_single rfl _ _).trans hk)
  have er : dot_S4096x256_S256x64_S4096x64_1_0_0_1_n_n.rhsIdx (ix2 r q) ((contrEquiv1 dot_S4096x256_S256x64_S4096x64_1_0_0_1_n_n 256 rfl rfl).symm k) = ix2 k q :=
    funext fun a => Fin.ext (by
      match a with
      | ⟨0, _⟩ => exact (dot_S4096x256_S256x64_S4096x64_1_0_0_1_n_n.rhsIdx_val_of_single rfl _ _).trans hk
      | ⟨1, _⟩ => exact rhs2_col _ _)
  rw [el, er]

/-! ## The broadcasts at an element -/

/-- A vector made a column and broadcast along the row reads, at `(r, k)`, its entry `r`. -/
theorem colBcast2_apply (c : FVec Ideal S4096 .f32) (r : Fin 4096) (k : Fin 256) :
    broadcastInDim S4096x256 ![0, 1] bcast_S4096x1_S4096x256_0_1 (broadcastInDim S4096x1 ![0] bcast_S4096_S4096x1_0 c) (ix2 r k) = c (ix1 r) :=
  (broadcastInDim_apply _ bcast_S4096x1_S4096x256_0_1 _ (ix2 r k) (ix2 r (0 : Fin 1)) (fun a => match a with
    | ⟨0, _⟩ => by show r.val = if (4096 : Nat) = 1 then 0 else r.val; rw [if_neg (by decide)]
    | ⟨1, _⟩ => by show 0 = if (1 : Nat) = 1 then 0 else k.val; rw [if_pos rfl])).trans
  (broadcastInDim_apply _ bcast_S4096_S4096x1_0 c (ix2 r (0 : Fin 1)) (ix1 r) (fun a => match a with
    | ⟨0, _⟩ => by show r.val = if (4096 : Nat) = 1 then 0 else r.val; rw [if_neg (by decide)]))

/-- A vector made a row and broadcast down the column reads, at `(r, q)`, its entry `q`. -/
theorem rowBcast2_apply (b : FVec Ideal S64 .f32) (r : Fin 4096) (q : Fin 64) :
    broadcastInDim S4096x64 ![0, 1] bcast_S1x64_S4096x64_0_1 (broadcastInDim S1x64 ![1] bcast_S64_S1x64_1 b) (ix2 r q) = b (ix1 q) :=
  (broadcastInDim_apply _ bcast_S1x64_S4096x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The float 1.0 broadcast to a vector reads 1.0 everywhere. -/
theorem ones2_apply (i : S4096.Idx) :
    broadcastInDim S4096 ![] bcast_S_S4096 (constant (F := Ideal) S_ .f32 0x3F800000#32) i = Ideal.ofBits .f32 0x3F800000#32 :=
  broadcastInDim_apply _ bcast_S_S4096 _ i ix0 (fun a => a.elim0)

/-! ## The combine stage -/

/-- The combine stage as the host computes it, of arbitrary arrays. -/
def hostLin2 (s : FVec Ideal S4096x256 .f32) (cnt : FVec Ideal S4096 .f32) (xt : FVec Ideal S4096x256 .f32)
    (Wl Wr : FVec Ideal S256x64 .f32) (b : FVec Ideal S64 .f32) : FVec Ideal S4096x64 .f32 :=
  addf (addf (Host.dotGeneral dot_S4096x256_S256x64_S4096x64_1_0_0_1_n_n none
      (Host.divf s (broadcastInDim S4096x256 ![0, 1] bcast_S4096x1_S4096x256_0_1 (broadcastInDim S4096x1 ![0] bcast_S4096_S4096x1_0 (maximumf cnt (broadcastInDim S4096 ![] bcast_S_S4096 (constant (F := Ideal) S_ .f32 0x3F800000#32)))))) Wl)
    (Host.dotGeneral dot_S4096x256_S256x64_S4096x64_1_0_0_1_n_n none xt Wr))
    (broadcastInDim S4096x64 ![0, 1] bcast_S1x64_S4096x64_0_1 (broadcastInDim S1x64 ![1] bcast_S64_S1x64_1 b))

/-- At row `r`, column `q` it is the combine stage of the arrays. -/
theorem hostLin2_apply (s : FVec Ideal S4096x256 .f32) (cnt : FVec Ideal S4096 .f32) (xt : FVec Ideal S4096x256 .f32)
    (Wl Wr : FVec Ideal S256x64 .f32) (b : FVec Ideal S64 .f32) (r : Fin 4096) (q : Fin 64) :
    hostLin2 s cnt xt Wl Wr b (ix2 r q)
      = combine (R := 4096) (K := 256) (N := 64) s (fun r => cnt (ix1 r)) xt Wl Wr (fun j => b (ix1 j)) r q := by
  unfold hostLin2 combine
  show (Host.dotGeneral dot_S4096x256_S256x64_S4096x64_1_0_0_1_n_n none _ Wl (ix2 r q) + Host.dotGeneral dot_S4096x256_S256x64_S4096x64_1_0_0_1_n_n none xt Wr (ix2 r q))
      + broadcastInDim S4096x64 ![0, 1] bcast_S1x64_S4096x64_0_1 (broadcastInDim S1x64 ![1] bcast_S64_S1x64_1 b) (ix2 r q) = _
  rw [dot2_apply, dot2_apply, rowBcast2_apply]
  refine congrArg (· + b (ix1 q)) (congrArg (· + ∑ k : Fin 256, xt (ix2 r k) * Wr (ix2 k q))
    (Finset.sum_congr rfl fun k _ => congrArg (· * Wl (ix2 k q)) ?_))
  show Ideal.div (s (ix2 r k)) (broadcastInDim S4096x256 ![0, 1] bcast_S4096x1_S4096x256_0_1 (broadcastInDim S4096x1 ![0] bcast_S4096_S4096x1_0 (maximumf cnt (broadcastInDim S4096 ![] bcast_S_S4096 (constant (F := Ideal) S_ .f32 0x3F800000#32)))) (ix2 r k)) = _
  rw [colBcast2_apply]
  show Ideal.div (s (ix2 r k)) (max (cnt (ix1 r)) (broadcastInDim S4096 ![] bcast_S_S4096 (constant (F := Ideal) S_ .f32 0x3F800000#32) (ix1 r))) = _
  rw [ones2_apply]

/-! ## The row-wise log-softmax, of an arbitrary array -/

/-- Inserting coordinate `j` on the reduced axis of the row index `r` gives the element `(r, j)`. -/
theorem lift_row (h : S4096x64.Reduces [1] S4096) (r : Fin 4096) (j : Fin 64) : h.lift (ix1 r) j = ix2 r j :=
  funext fun a => Fin.ext (by match a with | ⟨0, _⟩ => rfl | ⟨1, _⟩ => rfl)

/-- A vector made a column and broadcast along a row of 64 reads, at `(r, q)`, its entry `r`. -/
theorem colBcast64_apply (c : FVec Ideal S4096 .f32) (r : Fin 4096) (q : Fin 64) :
    broadcastInDim S4096x64 ![0, 1] bcast_S4096x1_S4096x64_0_1 (broadcastInDim S4096x1 ![0] bcast_S4096_S4096x1_0 c) (ix2 r q) = c (ix1 r) :=
  (broadcastInDim_apply _ bcast_S4096x1_S4096x64_0_1 _ (ix2 r q) (ix2 r (0 : Fin 1)) (fun a => match a with
    | ⟨0, _⟩ => by show r.val = if (4096 : Nat) = 1 then 0 else r.val; rw [if_neg (by decide)]
    | ⟨1, _⟩ => by show 0 = if (1 : Nat) = 1 then 0 else q.val; rw [if_pos rfl])).trans
  (broadcastInDim_apply _ bcast_S4096_S4096x1_0 c (ix2 r (0 : Fin 1)) (ix1 r) (fun a => match a with
    | ⟨0, _⟩ => by show r.val = if (4096 : Nat) = 1 then 0 else r.val; rw [if_neg (by decide)]))

/-- The row maximum as the host computes it: the reduce with `maximum` from −∞, then once more the maximum with −∞. -/
def hostRowMax (a : FVec Ideal S4096x64 .f32) : FVec Ideal S4096 .f32 :=
  maximumf (broadcastInDim S4096 ![] bcast_S_S4096 (constant (F := Ideal) S_ .f32 0xFF800000#32))
    (Host.reduce (FloatOps.maximumf (F := Ideal) (φ := .f32)) a (constant (F := Ideal) S_ .f32 0xFF800000#32)
      reducesTo_S4096x64_S4096_d1 h_S_)

/-- It is the fold of `max` from −∞ over the row. -/
theorem hostRowMax_apply (a : FVec Ideal S4096x64 .f32) (r : Fin 4096) :
    hostRowMax a (ix1 r)
      = (Finset.univ : Finset (Fin 64)).fold max (Ideal.ofBits .f32 0xFF800000#32) (fun j => a (ix2 r j)) := by
  show max (broadcastInDim S4096 ![] bcast_S_S4096 (constant (F := Ideal) S_ .f32 0xFF800000#32) (ix1 r))
      (Host.reduce (FloatOps.maximumf (F := Ideal) (φ := .f32)) a (constant (F := Ideal) S_ .f32 0xFF800000#32)
        reducesTo_S4096x64_S4096_d1 h_S_ (ix1 r)) = _
  rw [broadcastInDim_apply _ bcast_S_S4096 _ (ix1 r) ix0 (fun a => a.elim0),
    Host.reduce_eq_fold_single (FloatOps.maximumf (F := Ideal) (φ := .f32)) a _ reducesTo_S4096x64_S4096_d1
      (by decide : S4096x64.Reduces [1] S4096) h_S_ (ix1 r)]
  show max (Ideal.ofBits .f32 0xFF800000#32) ((Finset.univ : Finset (Fin 64)).fold max (Ideal.ofBits .f32 0xFF800000#32) _) = _
  refine (max_start_fold (Finset.univ : Finset (Fin 64)) (Ideal.ofBits .f32 0xFF800000#32) _).trans ?_
  exact congrArg ((Finset.univ : Finset (Fin 64)).fold max (Ideal.ofBits .f32 0xFF800000#32))
    (funext fun j => congrArg a (lift_row _ r j))

/-- The array with each row's maximum taken out. -/
def hostShift (a : FVec Ideal S4096x64 .f32) : FVec Ideal S4096x64 .f32 :=
  subf a (broadcastInDim S4096x64 ![0, 1] bcast_S4096x1_S4096x64_0_1 (broadcastInDim S4096x1 ![0] bcast_S4096_S4096x1_0 (hostRowMax a)))

theorem hostShift_apply (a : FVec Ideal S4096x64 .f32) (r : Fin 4096) (q : Fin 64) :
    hostShift a (ix2 r q)
      = a (ix2 r q) - (Finset.univ : Finset (Fin 64)).fold max (Ideal.ofBits .f32 0xFF800000#32) (fun j => a (ix2 r j)) := by
  show a (ix2 r q) - broadcastInDim S4096x64 ![0, 1] bcast_S4096x1_S4096x64_0_1 (broadcastInDim S4096x1 ![0] bcast_S4096_S4096x1_0 (hostRowMax a)) (ix2 r q) = _
  rw [colBcast64_apply, hostRowMax_apply]

/-- The host's row sum from the float 0.0: the sum over the row. -/
theorem hostRowSum_apply (x : FVec Ideal S4096x64 .f32) (r : Fin 4096) :
    Host.reduceAdd x (constant (F := Ideal) S_ .f32 0x00000000#32) reducesTo_S4096x64_S4096_d1 h_S_ (ix1 r)
      = ∑ j : Fin 64, x (ix2 r j) := by
  simp only [Host.reduceAdd, Ideal.hostReduceAdd_def]
  rw [Ideal.hostReduceAdd_single reducesTo_S4096x64_S4096_d1 (by decide)]
  show Ideal.ofBits .f32 0x00000000#32 + _ = _
  rw [Ideal.ofBits_zero_f32, zero_add]
  exact Finset.sum_congr rfl fun j _ => congrArg x (lift_row _ r j)

/-- The log-softmax as the host computes it. -/
def hostLsm (a : FVec Ideal S4096x64 .f32) : FVec Ideal S4096x64 .f32 :=
  subf (hostShift a)
    (broadcastInDim S4096x64 ![0, 1] bcast_S4096x1_S4096x64_0_1
      (Host.log (broadcastInDim S4096x1 ![0] bcast_S4096_S4096x1_0
        (Host.reduceAdd (Host.exp (hostShift a)) (constant (F := Ideal) S_ .f32 0x00000000#32)
          reducesTo_S4096x64_S4096_d1 h_S_))))

/-- At row `r`, column `q` it is the log-softmax of the row. -/
theorem hostLsm_apply (a : FVec Ideal S4096x64 .f32) (r : Fin 4096) (q : Fin 64) :
    hostLsm a (ix2 r q) = lsmRow (fun j => a (ix2 r j)) q := by
  unfold hostLsm lsmRow
  show hostShift a (ix2 r q)
      - broadcastInDim S4096x64 ![0, 1] bcast_S4096x1_S4096x64_0_1
          (Host.log (broadcastInDim S4096x1 ![0] bcast_S4096_S4096x1_0
            (Host.reduceAdd (Host.exp (hostShift a)) (constant (F := Ideal) S_ .f32 0x00000000#32)
              reducesTo_S4096x64_S4096_d1 h_S_))) (ix2 r q) = _
  rw [broadcastInDim_apply _ bcast_S4096x1_S4096x64_0_1 _ (ix2 r q) (ix2 r (0 : Fin 1)) (fun a => match a with
    | ⟨0, _⟩ => by show r.val = if (4096 : Nat) = 1 then 0 else r.val; rw [if_neg (by decide)]
    | ⟨1, _⟩ => by show 0 = if (1 : Nat) = 1 then 0 else q.val; rw [if_pos rfl])]
  show hostShift a (ix2 r q)
      - Ideal.log (broadcastInDim S4096x1 ![0] bcast_S4096_S4096x1_0
          (Host.reduceAdd (Host.exp (hostShift a)) (constant (F := Ideal) S_ .f32 0x00000000#32)
            reducesTo_S4096x64_S4096_d1 h_S_) (ix2 r (0 : Fin 1))) = _
  rw [broadcastInDim_apply _ bcast_S4096_S4096x1_0 _ (ix2 r (0 : Fin 1)) (ix1 r) (fun a => match a with
    | ⟨0, _⟩ => by show r.val = if (4096 : Nat) = 1 then 0 else r.val; rw [if_neg (by decide)]),
    hostRowSum_apply, hostShift_apply]
  refine congrArg (fun t => _ - Ideal.log t) (Finset.sum_congr rfl fun j _ => ?_)
  show Ideal.exp (hostShift a (ix2 r j)) = _
  rw [hostShift_apply]

/-! ## The second layer -/

/-- The second layer of arbitrary arrays as the host computes it is their log-softmax layer. -/
theorem hostLsm_lin2_eq (s : FVec Ideal S4096x256 .f32) (cnt : FVec Ideal S4096 .f32) (xt : FVec Ideal S4096x256 .f32)
    (Wl Wr : FVec Ideal S256x64 .f32) (b : FVec Ideal S64 .f32) :
    hostLsm (hostLin2 s cnt xt Wl Wr b)
      = logSoftmaxLayer (R := 4096) (K := 256) (N := 64) s (fun r => cnt (ix1 r)) xt Wl Wr (fun j => b (ix1 j)) := by
  funext i
  obtain ⟨r, q, rfl⟩ : ∃ (r : Fin 4096) (q : Fin 64), i = ix2 r q := ⟨i 0, i 1, eq_ix2 i⟩
  rw [hostLsm_apply]
  show _ = lsmRow (combine (R := 4096) (K := 256) (N := 64) s (fun r => cnt (ix1 r)) xt Wl Wr (fun j => b (ix1 j)) r) q
  exact congrArg (lsmRow · q) (funext fun j => hostLin2_apply s cnt xt Wl Wr b r j)

end Cert.ReferenceIdeal.HostLayers

end
-- ==== Proof.HostGlue.lean ====
/-
  The irregular part of a SAGE layer, as the host computes it, of ARBITRARY arrays.

  For an edge list (src, dst) and a feature array x: every edge's source row of x is gathered (a negative source index
  first has the number of rows added, as jnp indexing does) and scatter-added into its target's row of a zero array —
  the neighbour sums; a 1.0 per edge is scatter-added into its target's entry of a zero vector — the neighbour counts;
  and the targets' own rows are the leading rows of x.  Both programs compute exactly these, layer by layer, on the host;
  what each of them then does with the three arrays is the dense part, proved elsewhere.  Nothing here is opened: the
  proofs only ever need that the two programs apply the SAME functions to the same arguments.
-/
import proofs.«182186_j74148315398467_2_alg».proof.Proof.Gen.ReferenceIdeal

noncomputable section

namespace Cert.Sage.Glue

open Cert.ReferenceIdeal Cert.ReferenceIdeal.Gen Idealize.ShloMosaic

variable {F : FTy → Type} [FloatOps F]

/-- Layer 1's neighbour sums: rows of `x` gathered at `src` (1171456 added to a negative index) and scatter-added at
    `dst` into 45056 zero rows. -/
def nbrSum1 (x : (⟨S1171456x128, .f32⟩ : BufTy).Contents (Elt F)) (src dst : (⟨S1126400, .i32⟩ : BufTy).Contents (Elt F)) : (⟨S45056x128, .f32⟩ : BufTy).Contents (Elt F) :=
  Host.scatterAdd scatter_S45056x128_S1126400x1_S1126400x128_1_0_0_1
    (broadcastInDim S45056x128 ![] bcast_S_S45056x128 (constant (F := F) S_ .f32 0x00000000#32))
    (broadcastInDim S1126400x1 ![0] bcast_S1126400_S1126400x1_0 dst)
    (Host.gather gather_S1171456x128_S1126400x1_S1126400x128_1_0_n_n_0_1_1128 x
      (broadcastInDim S1126400x1 ![0] bcast_S1126400_S1126400x1_0
        (select (cmpi .slt src (broadcastInDim S1126400 ![] bcast_S_S1126400 (constantI S_ 32 0#32)))
          (addi src (broadcastInDim S1126400 ![] bcast_S_S1126400 (constantI S_ 32 1171456#32)))
          src)))

/-- Layer 1's neighbour counts: a 1.0 per edge scatter-added at `dst` into 45056 zeros. -/
def nbrCnt1 (dst : (⟨S1126400, .i32⟩ : BufTy).Contents (Elt F)) : (⟨S45056, .f32⟩ : BufTy).Contents (Elt F) :=
  Host.scatterAdd scatter_S45056_S1126400x1_S1126400_n_0_0_1
    (broadcastInDim S45056 ![] bcast_S_S45056 (constant (F := F) S_ .f32 0x00000000#32))
    (broadcastInDim S1126400x1 ![0] bcast_S1126400_S1126400x1_0 dst)
    (broadcastInDim S1126400 ![] bcast_S_S1126400 (constant (F := F) S_ .f32 0x3F800000#32))

/-- Layer 1's own rows: the first 45056 rows of `x`. -/
def rows1 (x : (⟨S1171456x128, .f32⟩ : BufTy).Contents (Elt F)) : (⟨S45056x128, .f32⟩ : BufTy).Contents (Elt F) :=
  extractStridedSlice S45056x128 ![0, 0] x slices_S1171456x128_S45056x128_0_0

/-- Layer 2's neighbour sums, of the first layer's output `h`: rows gathered at `src` (45056 added to a negative
    index) and scatter-added at `dst` into 4096 zero rows. -/
def nbrSum2 (h : (⟨S45056x256, .f32⟩ : BufTy).Contents (Elt F)) (src dst : (⟨S40960, .i32⟩ : BufTy).Contents (Elt F)) : (⟨S4096x256, .f32⟩ : BufTy).Contents (Elt F) :=
  Host.scatterAdd scatter_S4096x256_S40960x1_S40960x256_1_0_0_1
    (broadcastInDim S4096x256 ![] bcast_S_S4096x256 (constant (F := F) S_ .f32 0x00000000#32))
    (broadcastInDim S40960x1 ![0] bcast_S40960_S40960x1_0 dst)
    (Host.gather gather_S45056x256_S40960x1_S40960x256_1_0_n_n_0_1_1256 h
      (broadcastInDim S40960x1 ![0] bcast_S40960_S40960x1_0
        (select (cmpi .slt src (broadcastInDim S40960 ![] bcast_S_S40960 (constantI S_ 32 0#32)))
          (addi src (broadcastInDim S40960 ![] bcast_S_S40960 (constantI S_ 32 45056#32)))
          src)))

/-- Layer 2's neighbour counts: a 1.0 per edge scatter-added at `dst` into 4096 zeros. -/
def nbrCnt2 (dst : (⟨S40960, .i32⟩ : BufTy).Contents (Elt F)) : (⟨S4096, .f32⟩ : BufTy).Contents (Elt F) :=
  Host.scatterAdd scatter_S4096_S40960x1_S40960_n_0_0_1
    (broadcastInDim S4096 ![] bcast_S_S4096 (constant (F := F) S_ .f32 0x00000000#32))
    (broadcastInDim S40960x1 ![0] bcast_S40960_S40960x1_0 dst)
    (broadcastInDim S40960 ![] bcast_S_S40960 (constant (F := F) S_ .f32 0x3F800000#32))

/-- Layer 2's own rows: the first 4096 rows of the first layer's output. -/
def rows2 (h : (⟨S45056x256, .f32⟩ : BufTy).Contents (Elt F)) : (⟨S4096x256, .f32⟩ : BufTy).Contents (Elt F) :=
  extractStridedSlice S4096x256 ![0, 0] h slices_S45056x256_S4096x256_0_0

end Cert.Sage.Glue

end
-- ==== Proof.SageNet.lean ====
/-
  The whole network as one function of its eleven arguments.

  hidden = first layer of (neighbour sums of x over the first edge list, their counts, the first 45056 rows of x);
  result = second layer of (neighbour sums of hidden over the second edge list, their counts, the first 4096 rows of
  hidden).  Both programs end holding this array; the rest of the certificate says so for each.
-/
import proofs.«182186_j74148315398467_2_alg».proof.Proof.HostGlue
import proofs.«182186_j74148315398467_2_alg».proof.Proof.SageSpec

noncomputable section

namespace Cert.Sage

open Cert.ReferenceIdeal Idealize.ShloMosaic Idealize.ShloMosaic.ValueIdx Cert.Sage.Glue

/-- The first layer's output, of the features, the first layer's weights and bias and the first edge list. -/
def hidden (x : (⟨S1171456x128, .f32⟩ : BufTy).Contents (Elt Ideal)) (Wl1 Wr1 : (⟨S128x256, .f32⟩ : BufTy).Contents (Elt Ideal)) (b1 : (⟨S256, .f32⟩ : BufTy).Contents (Elt Ideal))
    (src1 dst1 : (⟨S1126400, .i32⟩ : BufTy).Contents (Elt Ideal)) : (⟨S45056x256, .f32⟩ : BufTy).Contents (Elt Ideal) :=
  reluLayer (R := 45056) (K := 128) (N := 256) (nbrSum1 (F := Ideal) x src1 dst1)
    (fun r => nbrCnt1 (F := Ideal) dst1 (ix1 r)) (rows1 (F := Ideal) x) Wl1 Wr1 (fun j => b1 (ix1 j))

/-- The network's result. -/
def sageNet (x : (⟨S1171456x128, .f32⟩ : BufTy).Contents (Elt Ideal)) (Wl1 Wr1 : (⟨S128x256, .f32⟩ : BufTy).Contents (Elt Ideal)) (b1 : (⟨S256, .f32⟩ : BufTy).Contents (Elt Ideal))
    (Wl2 Wr2 : (⟨S256x64, .f32⟩ : BufTy).Contents (Elt Ideal)) (b2 : (⟨S64, .f32⟩ : BufTy).Contents (Elt Ideal))
    (src1 dst1 : (⟨S1126400, .i32⟩ : BufTy).Contents (Elt Ideal)) (src2 dst2 : (⟨S40960, .i32⟩ : BufTy).Contents (Elt Ideal)) : (⟨S4096x64, .f32⟩ : BufTy).Contents (Elt Ideal) :=
  logSoftmaxLayer (R := 4096) (K := 256) (N := 64) (nbrSum2 (F := Ideal) (hidden x Wl1 Wr1 b1 src1 dst1) src2 dst2)
    (fun r => nbrCnt2 (F := Ideal) dst2 (ix1 r)) (rows2 (F := Ideal) (hidden x Wl1 Wr1 b1 src1 dst1)) Wl2 Wr2
    (fun j => b2 (ix1 j))

end Cert.Sage

end
-- ==== Proof.RefValue.lean ====
/-
  The reference's last stage is the network.

  Its stages up to the first layer's output are, read as one term, the first layer as the host computes it, applied to
  the neighbour sums, counts and own rows of the first edge list; its remaining stages are the second layer as the host
  computes it, applied to the same three of the second edge list over the first layer's output.  Each is an unfolding of
  names and nothing else; the two layers as the host computes them are the layers (proved of arbitrary arrays).
-/
import proofs.«182186_j74148315398467_2_alg».proof.Proof.ReadP
import proofs.«182186_j74148315398467_2_alg».proof.Proof.HostLayer1
import proofs.«182186_j74148315398467_2_alg».proof.Proof.HostLayer2
import proofs.«182186_j74148315398467_2_alg».proof.Proof.SageNet

noncomputable section

namespace Cert.ReferenceIdeal.RefValue

open Cert.ReferenceIdeal Cert.ReferenceIdeal.Gen Cert.ReferenceIdeal.Read Cert.ReferenceIdeal.HostLayers
open Idealize.ShloMosaic Idealize.ShloMosaic.ValueIdx Cert.Sage Cert.Sage.Glue

/-- The first layer's output stage, as one term over the irregular part. -/
theorem v26_host (x0 : (⟨S1171456x128, .f32⟩ : BufTy).Contents (Elt Ideal)) (x1 x2 : (⟨S128x256, .f32⟩ : BufTy).Contents (Elt Ideal)) (x3 : (⟨S256, .f32⟩ : BufTy).Contents (Elt Ideal))
    (x7 x8 : (⟨S1126400, .i32⟩ : BufTy).Contents (Elt Ideal)) :
    val_main_v26 (F := Ideal) x0 x1 x2 x3 x7 x8
      = hostRelu1 (nbrSum1 (F := Ideal) x0 x7 x8) (nbrCnt1 (F := Ideal) x8) (rows1 (F := Ideal) x0) x1 x2 x3 := by
  unfold val_main_v26 val_main_v25 val_main_v22 val_main_v20 val_main_v21 val_main_v24 val_main_v23 val_main_v19 val_main_v18 val_main_v17 val_main_v16 val_main_v15 val_main_cst_3 val_main_call0_v0 val_main_call0_cst val_main_v10 val_main_v9 val_main_v8 val_main_cst val_main_v7 val_main_v6 val_main_v5 val_main_v4 val_main_v3 val_main_c_0 val_main_v2 val_main_v1 val_main_c val_main_v14 val_main_v13 val_main_v12 val_main_cst_2 val_main_v11 val_main_cst_1 val_main_v0
  unfold hostRelu1 hostLin1 nbrSum1 nbrCnt1 rows1
  rfl

/-- The last stage, as one term over the first layer's output stage and the irregular part. -/
theorem v53_host (x0 : (⟨S1171456x128, .f32⟩ : BufTy).Contents (Elt Ideal)) (x1 x2 : (⟨S128x256, .f32⟩ : BufTy).Contents (Elt Ideal)) (x3 : (⟨S256, .f32⟩ : BufTy).Contents (Elt Ideal))
    (x4 x5 : (⟨S256x64, .f32⟩ : BufTy).Contents (Elt Ideal)) (x6 : (⟨S64, .f32⟩ : BufTy).Contents (Elt Ideal))
    (x7 x8 : (⟨S1126400, .i32⟩ : BufTy).Contents (Elt Ideal)) (x9 x10 : (⟨S40960, .i32⟩ : BufTy).Contents (Elt Ideal)) :
    val_main_v53 (F := Ideal) x0 x1 x2 x3 x4 x5 x6 x7 x8 x9 x10
      = hostLsm (hostLin2 (nbrSum2 (F := Ideal) (val_main_v26 (F := Ideal) x0 x1 x2 x3 x7 x8) x9 x10) (nbrCnt2 (F := Ideal) x10)
          (rows2 (F := Ideal) (val_main_v26 (F := Ideal) x0 x1 x2 x3 x7 x8)) x4 x5 x6) := by
  unfold val_main_v53 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst val_main_v52 val_main_v51 val_main_v50 val_main_v49 val_main_v48 val_main_v47 val_main_v46 val_main_v45 val_main_v44 val_main_v43 val_main_v42 val_main_cst_9 val_main_v41 val_main_v40 val_main_v39 val_main_cst_8 val_main_v38 val_main_cst_7 val_main_v37 val_main_v36 val_main_v35 val_main_cst_6 val_main_v34 val_main_v33 val_main_v32 val_main_v31 val_main_v30 val_main_c_5 val_main_v29 val_main_v28 val_main_c_4 val_main_v27
  unfold hostLsm hostShift hostRowMax hostLin2 nbrSum2 nbrCnt2 rows2
  rfl

/-- The reference's last stage is the network of the arguments. -/
theorem v53_eq (x0 : (⟨S1171456x128, .f32⟩ : BufTy).Contents (Elt Ideal)) (x1 x2 : (⟨S128x256, .f32⟩ : BufTy).Contents (Elt Ideal)) (x3 : (⟨S256, .f32⟩ : BufTy).Contents (Elt Ideal))
    (x4 x5 : (⟨S256x64, .f32⟩ : BufTy).Contents (Elt Ideal)) (x6 : (⟨S64, .f32⟩ : BufTy).Contents (Elt Ideal))
    (x7 x8 : (⟨S1126400, .i32⟩ : BufTy).Contents (Elt Ideal)) (x9 x10 : (⟨S40960, .i32⟩ : BufTy).Contents (Elt Ideal)) :
    val_main_v53 (F := Ideal) x0 x1 x2 x3 x4 x5 x6 x7 x8 x9 x10 = sageNet x0 x1 x2 x3 x4 x5 x6 x7 x8 x9 x10 := by
  rw [v53_host, hostLsm_lin2_eq, v26_host, hostRelu1_eq]
  rfl

end Cert.ReferenceIdeal.RefValue

end
-- ==== Proof.KernelRun.lean ====
/-
  The kernel's run, with the result array named.

  @main on a TensorCore is four segments in order: a stretch of host operations, region 0 (the first layer's grid), a
  second stretch of host operations, region 1 (the second layer's grid).  Every buffer that is not scoped to a region is
  carried through all four, and after the last one it holds the last boundary's contents: the launch memory folded
  through the two stretches of host operations and, at each region's arrays, through that region's write-backs.  Read
  at an argument array that fold walks back to the launch memory, since nothing writes an argument.  Read at the
  result array it is what region 1's write-backs leave.  So every weakly fair execution terminates with the result
  array at the last boundary's contents and every argument as launched.
-/
import proofs.«182186_j74148315398467_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the TensorCores
    terminates, nothing faulting, and every final state has the result array at the last boundary's contents — what
    region 1's write-backs leave — and the argument arrays as launched: the last thread state holds every unscoped
    buffer at the last boundary's contents, and the result array and the arguments are unscoped. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.KernelGlue.lean ====
/-
  The kernel's host operations around its two regions, read back.

  Before each region the program prepares that layer's three irregular arrays on the host — the neighbour sums by
  gather and scatter-add, the neighbour counts by scatter-add of ones (then made a column), the rows' own features by a
  slice — and makes the bias a row.  Read from ANY contents of the buffers, each prepared buffer holds the corresponding
  function of what the contents hold at the arguments (and, for the second layer, at the first region's output).
  The program's host operations sit in a function it calls, which names each buffer with the type of the value held
  there; the buffer's own type is that type, so carrying contents across is the identity (one equation per buffer).
-/
import proofs.«182186_j74148315398467_2_alg».proof.Proof.Gen.KernelIdeal.Frame
import proofs.«182186_j74148315398467_2_alg».proof.Proof.HostGlue
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo
open Cert.Sage.Glue

variable {F : FTy → Type} [FloatOps F]

/-! ## A called function's buffer, at its value's type -/

theorem toBuf_kc (v : (⟨S_, .i32⟩ : BufTy).Contents (Elt F)) :
    (TRef.of main_call0_c : TRef sig ⟨S_, .i32⟩).toBuf v = v := rfl
theorem ofBuf_kc (v : (⟨S_, .i32⟩ : BufTy).Contents (Elt F)) :
    (TRef.of main_call0_c : TRef sig ⟨S_, .i32⟩).ofBuf (Val := Elt F) v = v := rfl
theorem toBuf_kv0 (v : (⟨S1126400, .i32⟩ : BufTy).Contents (Elt F)) :
    (TRef.of main_call0_v0 : TRef sig ⟨S1126400, .i32⟩).toBuf v = v := rfl
theorem ofBuf_kv0 (v : (⟨S1126400, .i32⟩ : BufTy).Contents (Elt F)) :
    (TRef.of main_call0_v0 : TRef sig ⟨S1126400, .i32⟩).ofBuf (Val := Elt F) v = v := rfl
theorem toBuf_kv1 (v : (⟨S1126400, .i1⟩ : BufTy).Contents (Elt F)) :
    (TRef.of main_call0_v1 : TRef sig ⟨S1126400, .i1⟩).toBuf v = v := rfl
theorem ofBuf_kv1 (v : (⟨S1126400, .i1⟩ : BufTy).Contents (Elt F)) :
    (TRef.of main_call0_v1 : TRef sig ⟨S1126400, .i1⟩).ofBuf (Val := Elt F) v = v := rfl
theorem toBuf_kc_0 (v : (⟨S_, .i32⟩ : BufTy).Contents (Elt F)) :
    (TRef.of main_call0_c_0 : TRef sig ⟨S_, .i32⟩).toBuf v = v := rfl
theorem ofBuf_kc_0 (v : (⟨S_, .i32⟩ : BufTy).Contents (Elt F)) :
    (TRef.of main_call0_c_0 : TRef sig ⟨S_, .i32⟩).ofBuf (Val := Elt F) v = v := rfl
theorem toBuf_kv2 (v : (⟨S1126400, .i32⟩ : BufTy).Contents (Elt F)) :
    (TRef.of main_call0_v2 : TRef sig ⟨S1126400, .i32⟩).toBuf v = v := rfl
theorem ofBuf_kv2 (v : (⟨S1126400, .i32⟩ : BufTy).Contents (Elt F)) :
    (TRef.of main_call0_v2 : TRef sig ⟨S1126400, .i32⟩).ofBuf (Val := Elt F) v = v := rfl
theorem toBuf_kv3 (v : (⟨S1126400, .i32⟩ : BufTy).Contents (Elt F)) :
    (TRef.of main_call0_v3 : TRef sig ⟨S1126400, .i32⟩).toBuf v = v := rfl
theorem ofBuf_kv3 (v : (⟨S1126400, .i32⟩ : BufTy).Contents (Elt F)) :
    (TRef.of main_call0_v3 : TRef sig ⟨S1126400, .i32⟩).ofBuf (Val := Elt F) v = v := rfl
theorem toBuf_kv4 (v : (⟨S1126400, .i32⟩ : BufTy).Contents (Elt F)) :
    (TRef.of main_call0_v4 : TRef sig ⟨S1126400, .i32⟩).toBuf v = v := rfl
theorem ofBuf_kv4 (v : (⟨S1126400, .i32⟩ : BufTy).Contents (Elt F)) :
    (TRef.of main_call0_v4 : TRef sig ⟨S1126400, .i32⟩).ofBuf (Val := Elt F) v = v := rfl
theorem toBuf_kv5 (v : (⟨S1126400x1, .i32⟩ : BufTy).Contents (Elt F)) :
    (TRef.of main_call0_v5 : TRef sig ⟨S1126400x1, .i32⟩).toBuf v = v := rfl
theorem ofBuf_kv5 (v : (⟨S1126400x1, .i32⟩ : BufTy).Contents (Elt F)) :
    (TRef.of main_call0_v5 : TRef sig ⟨S1126400x1, .i32⟩).ofBuf (Val := Elt F) v = v := rfl
theorem toBuf_kv6 (v : (⟨S1126400x128, .f32⟩ : BufTy).Contents (Elt F)) :
    (TRef.of main_call0_v6 : TRef sig ⟨S1126400x128, .f32⟩).toBuf v = v := rfl
theorem ofBuf_kv6 (v : (⟨S1126400x128, .f32⟩ : BufTy).Contents (Elt F)) :
    (TRef.of main_call0_v6 : TRef sig ⟨S1126400x128, .f32⟩).ofBuf (Val := Elt F) v = v := rfl
theorem toBuf_kcst (v : (⟨S_, .f32⟩ : BufTy).Contents (Elt F)) :
    (TRef.of main_call0_cst : TRef sig ⟨S_, .f32⟩).toBuf v = v := rfl
theorem ofBuf_kcst (v : (⟨S_, .f32⟩ : BufTy).Contents (Elt F)) :
    (TRef.of main_call0_cst : TRef sig ⟨S_, .f32⟩).ofBuf (Val := Elt F) v = v := rfl
theorem toBuf_kv7 (v : (⟨S45056x128, .f32⟩ : BufTy).Contents (Elt F)) :
    (TRef.of main_call0_v7 : TRef sig ⟨S45056x128, .f32⟩).toBuf v = v := rfl
theorem ofBuf_kv7 (v : (⟨S45056x128, .f32⟩ : BufTy).Contents (Elt F)) :
    (TRef.of main_call0_v7 : TRef sig ⟨S45056x128, .f32⟩).ofBuf (Val := Elt F) v = v := rfl
theorem toBuf_kv8 (v : (⟨S1126400x1, .i32⟩ : BufTy).Contents (Elt F)) :
    (TRef.of main_call0_v8 : TRef sig ⟨S1126400x1, .i32⟩).toBuf v = v := rfl
theorem ofBuf_kv8 (v : (⟨S1126400x1, .i32⟩ : BufTy).Contents (Elt F)) :
    (TRef.of main_call0_v8 : TRef sig ⟨S1126400x1, .i32⟩).ofBuf (Val := Elt F) v = v := rfl
theorem toBuf_kv9 (v : (⟨S45056x128, .f32⟩ : BufTy).Contents (Elt F)) :
    (TRef.of main_call0_v9 : TRef sig ⟨S45056x128, .f32⟩).toBuf v = v := rfl
theorem toBuf_kcst_1 (v : (⟨S_, .f32⟩ : BufTy).Contents (Elt F)) :
    (TRef.of main_call0_cst_1 : TRef sig ⟨S_, .f32⟩).toBuf v = v := rfl
theorem ofBuf_kcst_1 (v : (⟨S_, .f32⟩ : BufTy).Contents (Elt F)) :
    (TRef.of main_call0_cst_1 : TRef sig ⟨S_, .f32⟩).ofBuf (Val := Elt F) v = v := rfl
theorem toBuf_kv10 (v : (⟨S1126400, .f32⟩ : BufTy).Contents (Elt F)) :
    (TRef.of main_call0_v10 : TRef sig ⟨S1126400, .f32⟩).toBuf v = v := rfl
theorem ofBuf_kv10 (v : (⟨S1126400, .f32⟩ : BufTy).Contents (Elt F)) :
    (TRef.of main_call0_v10 : TRef sig ⟨S1126400, .f32⟩).ofBuf (Val := Elt F) v = v := rfl
theorem toBuf_kcst_2 (v : (⟨S_, .f32⟩ : BufTy).Contents (Elt F)) :
    (TRef.of main_call0_cst_2 : TRef sig ⟨S_, .f32⟩).toBuf v = v := rfl
theorem ofBuf_kcst_2 (v : (⟨S_, .f32⟩ : BufTy).Contents (Elt F)) :
    (TRef.of main_call0_cst_2 : TRef sig ⟨S_, .f32⟩).ofBuf (Val := Elt F) v = v := rfl
theorem toBuf_kv11 (v : (⟨S45056, .f32⟩ : BufTy).Contents (Elt F)) :
    (TRef.of main_call0_v11 : TRef sig ⟨S45056, .f32⟩).toBuf v = v := rfl
theorem ofBuf_kv11 (v : (⟨S45056, .f32⟩ : BufTy).Contents (Elt F)) :
    (TRef.of main_call0_v11 : TRef sig ⟨S45056, .f32⟩).ofBuf (Val := Elt F) v = v := rfl
theorem toBuf_kv12 (v : (⟨S1126400x1, .i32⟩ : BufTy).Contents (Elt F)) :
    (TRef.of main_call0_v12 : TRef sig ⟨S1126400x1, .i32⟩).toBuf v = v := rfl
theorem ofBuf_kv12 (v : (⟨S1126400x1, .i32⟩ : BufTy).Contents (Elt F)) :
    (TRef.of main_call0_v12 : TRef sig ⟨S1126400x1, .i32⟩).ofBuf (Val := Elt F) v = v := rfl
theorem toBuf_kv13 (v : (⟨S45056, .f32⟩ : BufTy).Contents (Elt F)) :
    (TRef.of main_call0_v13 : TRef sig ⟨S45056, .f32⟩).toBuf v = v := rfl
theorem ofBuf_kv13 (v : (⟨S45056, .f32⟩ : BufTy).Contents (Elt F)) :
    (TRef.of main_call0_v13 : TRef sig ⟨S45056, .f32⟩).ofBuf (Val := Elt F) v = v := rfl
theorem toBuf_kv14 (v : (⟨S45056x1, .f32⟩ : BufTy).Contents (Elt F)) :
    (TRef.of main_call0_v14 : TRef sig ⟨S45056x1, .f32⟩).toBuf v = v := rfl
theorem toBuf_kv15 (v : (⟨S45056x128, .f32⟩ : BufTy).Contents (Elt F)) :
    (TRef.of main_call0_v15 : TRef sig ⟨S45056x128, .f32⟩).toBuf v = v := rfl
theorem toBuf_kv16 (v : (⟨S1x256, .f32⟩ : BufTy).Contents (Elt F)) :
    (TRef.of main_call0_v16 : TRef sig ⟨S1x256, .f32⟩).toBuf v = v := rfl
theorem ofBuf_arg0 (v : (⟨S1171456x128, .f32⟩ : BufTy).Contents (Elt F)) :
    (TRef.of main_arg0 : TRef sig ⟨S1171456x128, .f32⟩).ofBuf (Val := Elt F) v = v := rfl
theorem ofBuf_arg7 (v : (⟨S1126400, .i32⟩ : BufTy).Contents (Elt F)) :
    (TRef.of main_arg7 : TRef sig ⟨S1126400, .i32⟩).ofBuf (Val := Elt F) v = v := rfl
theorem ofBuf_arg8 (v : (⟨S1126400, .i32⟩ : BufTy).Contents (Elt F)) :
    (TRef.of main_arg8 : TRef sig ⟨S1126400, .i32⟩).ofBuf (Val := Elt F) v = v := rfl
theorem ofBuf_arg3 (v : (⟨S256, .f32⟩ : BufTy).Contents (Elt F)) :
    (TRef.of main_arg3 : TRef sig ⟨S256, .f32⟩).ofBuf (Val := Elt F) v = v := rfl
theorem toBuf_kc_3 (v : (⟨S_, .i32⟩ : BufTy).Contents (Elt F)) :
    (TRef.of main_call0_c_3 : TRef sig ⟨S_, .i32⟩).toBuf v = v := rfl
theorem ofBuf_kc_3 (v : (⟨S_, .i32⟩ : BufTy).Contents (Elt F)) :
    (TRef.of main_call0_c_3 : TRef sig ⟨S_, .i32⟩).ofBuf (Val := Elt F) v = v := rfl
theorem toBuf_kv18 (v : (⟨S40960, .i32⟩ : BufTy).Contents (Elt F)) :
    (TRef.of main_call0_v18 : TRef sig ⟨S40960, .i32⟩).toBuf v = v := rfl
theorem ofBuf_kv18 (v : (⟨S40960, .i32⟩ : BufTy).Contents (Elt F)) :
    (TRef.of main_call0_v18 : TRef sig ⟨S40960, .i32⟩).ofBuf (Val := Elt F) v = v := rfl
theorem toBuf_kv19 (v : (⟨S40960, .i1⟩ : BufTy).Contents (Elt F)) :
    (TRef.of main_call0_v19 : TRef sig ⟨S40960, .i1⟩).toBuf v = v := rfl
theorem ofBuf_kv19 (v : (⟨S40960, .i1⟩ : BufTy).Contents (Elt F)) :
    (TRef.of main_call0_v19 : TRef sig ⟨S40960, .i1⟩).ofBuf (Val := Elt F) v = v := rfl
theorem toBuf_kc_4 (v : (⟨S_, .i32⟩ : BufTy).Contents (Elt F)) :
    (TRef.of main_call0_c_4 : TRef sig ⟨S_, .i32⟩).toBuf v = v := rfl
theorem ofBuf_kc_4 (v : (⟨S_, .i32⟩ : BufTy).Contents (Elt F)) :
    (TRef.of main_call0_c_4 : TRef sig ⟨S_, .i32⟩).ofBuf (Val := Elt F) v = v := rfl
theorem toBuf_kv20 (v : (⟨S40960, .i32⟩ : BufTy).Contents (Elt F)) :
    (TRef.of main_call0_v20 : TRef sig ⟨S40960, .i32⟩).toBuf v = v := rfl
theorem ofBuf_kv20 (v : (⟨S40960, .i32⟩ : BufTy).Contents (Elt F)) :
    (TRef.of main_call0_v20 : TRef sig ⟨S40960, .i32⟩).ofBuf (Val := Elt F) v = v := rfl
theorem toBuf_kv21 (v : (⟨S40960, .i32⟩ : BufTy).Contents (Elt F)) :
    (TRef.of main_call0_v21 : TRef sig ⟨S40960, .i32⟩).toBuf v = v := rfl
theorem ofBuf_kv21 (v : (⟨S40960, .i32⟩ : BufTy).Contents (Elt F)) :
    (TRef.of main_call0_v21 : TRef sig ⟨S40960, .i32⟩).ofBuf (Val := Elt F) v = v := rfl
theorem toBuf_kv22 (v : (⟨S40960, .i32⟩ : BufTy).Contents (Elt F)) :
    (TRef.of main_call0_v22 : TRef sig ⟨S40960, .i32⟩).toBuf v = v := rfl
theorem ofBuf_kv22 (v : (⟨S40960, .i32⟩ : BufTy).Contents (Elt F)) :
    (TRef.of main_call0_v22 : TRef sig ⟨S40960, .i32⟩).ofBuf (Val := Elt F) v = v := rfl
theorem toBuf_kv23 (v : (⟨S40960x1, .i32⟩ : BufTy).Contents (Elt F)) :
    (TRef.of main_call0_v23 : TRef sig ⟨S40960x1, .i32⟩).toBuf v = v := rfl
theorem ofBuf_kv23 (v : (⟨S40960x1, .i32⟩ : BufTy).Contents (Elt F)) :
    (TRef.of main_call0_v23 : TRef sig ⟨S40960x1, .i32⟩).ofBuf (Val := Elt F) v = v := rfl
theorem toBuf_kv24 (v : (⟨S40960x256, .f32⟩ : BufTy).Contents (Elt F)) :
    (TRef.of main_call0_v24 : TRef sig ⟨S40960x256, .f32⟩).toBuf v = v := rfl
theorem ofBuf_kv24 (v : (⟨S40960x256, .f32⟩ : BufTy).Contents (Elt F)) :
    (TRef.of main_call0_v24 : TRef sig ⟨S40960x256, .f32⟩).ofBuf (Val := Elt F) v = v := rfl
theorem toBuf_kcst_5 (v : (⟨S_, .f32⟩ : BufTy).Contents (Elt F)) :
    (TRef.of main_call0_cst_5 : TRef sig ⟨S_, .f32⟩).toBuf v = v := rfl
theorem ofBuf_kcst_5 (v : (⟨S_, .f32⟩ : BufTy).Contents (Elt F)) :
    (TRef.of main_call0_cst_5 : TRef sig ⟨S_, .f32⟩).ofBuf (Val := Elt F) v = v := rfl
theorem toBuf_kv25 (v : (⟨S4096x256, .f32⟩ : BufTy).Contents (Elt F)) :
    (TRef.of main_call0_v25 : TRef sig ⟨S4096x256, .f32⟩).toBuf v = v := rfl
theorem ofBuf_kv25 (v : (⟨S4096x256, .f32⟩ : BufTy).Contents (Elt F)) :
    (TRef.of main_call0_v25 : TRef sig ⟨S4096x256, .f32⟩).ofBuf (Val := Elt F) v = v := rfl
theorem toBuf_kv26 (v : (⟨S40960x1, .i32⟩ : BufTy).Contents (Elt F)) :
    (TRef.of main_call0_v26 : TRef sig ⟨S40960x1, .i32⟩).toBuf v = v := rfl
theorem ofBuf_kv26 (v : (⟨S40960x1, .i32⟩ : BufTy).Contents (Elt F)) :
    (TRef.of main_call0_v26 : TRef sig ⟨S40960x1, .i32⟩).ofBuf (Val := Elt F) v = v := rfl
theorem toBuf_kv27 (v : (⟨S4096x256, .f32⟩ : BufTy).Contents (Elt F)) :
    (TRef.of main_call0_v27 : TRef sig ⟨S4096x256, .f32⟩).toBuf v = v := rfl
theorem toBuf_kcst_6 (v : (⟨S_, .f32⟩ : BufTy).Contents (Elt F)) :
    (TRef.of main_call0_cst_6 : TRef sig ⟨S_, .f32⟩).toBuf v = v := rfl
theorem ofBuf_kcst_6 (v : (⟨S_, .f32⟩ : BufTy).Contents (Elt F)) :
    (TRef.of main_call0_cst_6 : TRef sig ⟨S_, .f32⟩).ofBuf (Val := Elt F) v = v := rfl
theorem toBuf_kv28 (v : (⟨S40960, .f32⟩ : BufTy).Contents (Elt F)) :
    (TRef.of main_call0_v28 : TRef sig ⟨S40960, .f32⟩).toBuf v = v := rfl
theorem ofBuf_kv28 (v : (⟨S40960, .f32⟩ : BufTy).Contents (Elt F)) :
    (TRef.of main_call0_v28 : TRef sig ⟨S40960, .f32⟩).ofBuf (Val := Elt F) v = v := rfl
theorem toBuf_kcst_7 (v : (⟨S_, .f32⟩ : BufTy).Contents (Elt F)) :
    (TRef.of main_call0_cst_7 : TRef sig ⟨S_, .f32⟩).toBuf v = v := rfl
theorem ofBuf_kcst_7 (v : (⟨S_, .f32⟩ : BufTy).Contents (Elt F)) :
    (TRef.of main_call0_cst_7 : TRef sig ⟨S_, .f32⟩).ofBuf (Val := Elt F) v = v := rfl
theorem toBuf_kv29 (v : (⟨S4096, .f32⟩ : BufTy).Contents (Elt F)) :
    (TRef.of main_call0_v29 : TRef sig ⟨S4096, .f32⟩).toBuf v = v := rfl
theorem ofBuf_kv29 (v : (⟨S4096, .f32⟩ : BufTy).Contents (Elt F)) :
    (TRef.of main_call0_v29 : TRef sig ⟨S4096, .f32⟩).ofBuf (Val := Elt F) v = v := rfl
theorem toBuf_kv30 (v : (⟨S40960x1, .i32⟩ : BufTy).Contents (Elt F)) :
    (TRef.of main_call0_v30 : TRef sig ⟨S40960x1, .i32⟩).toBuf v = v := rfl
theorem ofBuf_kv30 (v : (⟨S40960x1, .i32⟩ : BufTy).Contents (Elt F)) :
    (TRef.of main_call0_v30 : TRef sig ⟨S40960x1, .i32⟩).ofBuf (Val := Elt F) v = v := rfl
theorem toBuf_kv31 (v : (⟨S4096, .f32⟩ : BufTy).Contents (Elt F)) :
    (TRef.of main_call0_v31 : TRef sig ⟨S4096, .f32⟩).toBuf v = v := rfl
theorem ofBuf_kv31 (v : (⟨S4096, .f32⟩ : BufTy).Contents (Elt F)) :
    (TRef.of main_call0_v31 : TRef sig ⟨S4096, .f32⟩).ofBuf (Val := Elt F) v = v := rfl
theorem toBuf_kv32 (v : (⟨S4096x1, .f32⟩ : BufTy).Contents (Elt F)) :
    (TRef.of main_call0_v32 : TRef sig ⟨S4096x1, .f32⟩).toBuf v = v := rfl
theorem toBuf_kv33 (v : (⟨S4096x256, .f32⟩ : BufTy).Contents (Elt F)) :
    (TRef.of main_call0_v33 : TRef sig ⟨S4096x256, .f32⟩).toBuf v = v := rfl
theorem toBuf_kv34 (v : (⟨S1x64, .f32⟩ : BufTy).Contents (Elt F)) :
    (TRef.of main_call0_v34 : TRef sig ⟨S1x64, .f32⟩).toBuf v = v := rfl
theorem ofBuf_arg9 (v : (⟨S40960, .i32⟩ : BufTy).Contents (Elt F)) :
    (TRef.of main_arg9 : TRef sig ⟨S40960, .i32⟩).ofBuf (Val := Elt F) v = v := rfl
theorem ofBuf_kv17 (v : (⟨S45056x256, .f32⟩ : BufTy).Contents (Elt F)) :
    (TRef.of main_call0_v17 : TRef sig ⟨S45056x256, .f32⟩).ofBuf (Val := Elt F) v = v := rfl
theorem ofBuf_arg10 (v : (⟨S40960, .i32⟩ : BufTy).Contents (Elt F)) :
    (TRef.of main_arg10 : TRef sig ⟨S40960, .i32⟩).ofBuf (Val := Elt F) v = v := rfl
theorem ofBuf_arg6 (v : (⟨S64, .f32⟩ : BufTy).Contents (Elt F)) :
    (TRef.of main_arg6 : TRef sig ⟨S64, .f32⟩).ofBuf (Val := Elt F) v = v := rfl

/-! ## Region 0's entry arrays, from any contents -/

/-- The first region's neighbour sums. -/
theorem entry0_sum (W : Valuation τ sig (Elt F)) :
    after (hostOps0 (F := F)) W (Proc.devRef .tc main_call0_v9) = nbrSum1 (F := F) (W (Proc.devRef .tc main_arg0)) (W (Proc.devRef .tc main_arg7)) (W (Proc.devRef .tc main_arg8)) := by
  simp only [hostOps0]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The first region's neighbour counts, made a column. -/
theorem entry0_cnt (W : Valuation τ sig (Elt F)) :
    after (hostOps0 (F := F)) W (Proc.devRef .tc main_call0_v14) = shapeCast S45056x1 (nbrCnt1 (F := F) (W (Proc.devRef .tc main_arg8))) shapeCasts_S45056_S45056x1 := by
  simp only [hostOps0]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The first region's own rows. -/
theorem entry0_rows (W : Valuation τ sig (Elt F)) :
    after (hostOps0 (F := F)) W (Proc.devRef .tc main_call0_v15) = rows1 (F := F) (W (Proc.devRef .tc main_arg0)) := by
  simp only [hostOps0]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The first region's bias, made a row. -/
theorem entry0_bias (W : Valuation τ sig (Elt F)) :
    after (hostOps0 (F := F)) W (Proc.devRef .tc main_call0_v16) = shapeCast S1x256 (W (Proc.devRef .tc main_arg3)) shapeCasts_S256_S1x256 := by
  simp only [hostOps0]
  after_results_simp
  rfl

/-! The arguments are untouched by the first stretch of host operations. -/

theorem entry0_arg1 (W : Valuation τ sig (Elt F)) :
    after (hostOps0 (F := F)) W (Proc.devRef .tc main_arg1) = W (Proc.devRef .tc main_arg1) := by
  simp only [hostOps0]
  after_results_simp <;> rfl

theorem entry0_arg2 (W : Valuation τ sig (Elt F)) :
    after (hostOps0 (F := F)) W (Proc.devRef .tc main_arg2) = W (Proc.devRef .tc main_arg2) := by
  simp only [hostOps0]
  after_results_simp <;> rfl

theorem entry0_arg4 (W : Valuation τ sig (Elt F)) :
    after (hostOps0 (F := F)) W (Proc.devRef .tc main_arg4) = W (Proc.devRef .tc main_arg4) := by
  simp only [hostOps0]
  after_results_simp <;> rfl

theorem entry0_arg5 (W : Valuation τ sig (Elt F)) :
    after (hostOps0 (F := F)) W (Proc.devRef .tc main_arg5) = W (Proc.devRef .tc main_arg5) := by
  simp only [hostOps0]
  after_results_simp <;> rfl

theorem entry0_arg6 (W : Valuation τ sig (Elt F)) :
    after (hostOps0 (F := F)) W (Proc.devRef .tc main_arg6) = W (Proc.devRef .tc main_arg6) := by
  simp only [hostOps0]
  after_results_simp <;> rfl

theorem entry0_arg9 (W : Valuation τ sig (Elt F)) :
    after (hostOps0 (F := F)) W (Proc.devRef .tc main_arg9) = W (Proc.devRef .tc main_arg9) := by
  simp only [hostOps0]
  after_results_simp <;> rfl

theorem entry0_arg10 (W : Valuation τ sig (Elt F)) :
    after (hostOps0 (F := F)) W (Proc.devRef .tc main_arg10) = W (Proc.devRef .tc main_arg10) := by
  simp only [hostOps0]
  after_results_simp <;> rfl

/-! ## Region 1's entry arrays, from any contents -/

/-- The second region's neighbour sums, of what the first region's output buffer holds. -/
theorem entry1_sum (W : Valuation τ sig (Elt F)) :
    after (hostOps1 (F := F)) W (Proc.devRef .tc main_call0_v27) = nbrSum2 (F := F) (W (Proc.devRef .tc main_call0_v17)) (W (Proc.devRef .tc main_arg9)) (W (Proc.devRef .tc main_arg10)) := by
  simp only [hostOps1]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The second region's neighbour counts, made a column. -/
theorem entry1_cnt (W : Valuation τ sig (Elt F)) :
    after (hostOps1 (F := F)) W (Proc.devRef .tc main_call0_v32) = shapeCast S4096x1 (nbrCnt2 (F := F) (W (Proc.devRef .tc main_arg10))) shapeCasts_S4096_S4096x1 := by
  simp only [hostOps1]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The second region's own rows: the leading rows of what the first region's output buffer holds. -/
theorem entry1_rows (W : Valuation τ sig (Elt F)) :
    after (hostOps1 (F := F)) W (Proc.devRef .tc main_call0_v33) = rows2 (F := F) (W (Proc.devRef .tc main_call0_v17)) := by
  simp only [hostOps1]
  after_results_simp
  simp only [toBuf_kc, ofBuf_kc, toBuf_kv0, ofBuf_kv0, toBuf_kv1, ofBuf_kv1, toBuf_kc_0, ofBuf_kc_0, toBuf_kv2, ofBuf_kv2, toBuf_kv3, ofBuf_kv3, toBuf_kv4, ofBuf_kv4, toBuf_kv5, ofBuf_kv5, toBuf_kv6, ofBuf_kv6, toBuf_kcst, ofBuf_kcst, toBuf_kv7, ofBuf_kv7, toBuf_kv8, ofBuf_kv8, toBuf_kv9, toBuf_kcst_1, ofBuf_kcst_1, toBuf_kv10, ofBuf_kv10, toBuf_kcst_2, ofBuf_kcst_2, toBuf_kv11, ofBuf_kv11, toBuf_kv12, ofBuf_kv12, toBuf_kv13, ofBuf_kv13, toBuf_kv14, toBuf_kv15, toBuf_kv16, ofBuf_arg0, ofBuf_arg7, ofBuf_arg8, ofBuf_arg3, toBuf_kc_3, ofBuf_kc_3, toBuf_kv18, ofBuf_kv18, toBuf_kv19, ofBuf_kv19, toBuf_kc_4, ofBuf_kc_4, toBuf_kv20, ofBuf_kv20, toBuf_kv21, ofBuf_kv21, toBuf_kv22, ofBuf_kv22, toBuf_kv23, ofBuf_kv23, toBuf_kv24, ofBuf_kv24, toBuf_kcst_5, ofBuf_kcst_5, toBuf_kv25, ofBuf_kv25, toBuf_kv26, ofBuf_kv26, toBuf_kv27, toBuf_kcst_6, ofBuf_kcst_6, toBuf_kv28, ofBuf_kv28, toBuf_kcst_7, ofBuf_kcst_7, toBuf_kv29, ofBuf_kv29, toBuf_kv30, ofBuf_kv30, toBuf_kv31, ofBuf_kv31, toBuf_kv32, toBuf_kv33, toBuf_kv34, ofBuf_arg9, ofBuf_kv17, ofBuf_arg10, ofBuf_arg6]
  rfl
/-- The second region's bias, made a row. -/
theorem entry1_bias (W : Valuation τ sig (Elt F)) :
    after (hostOps1 (F := F)) W (Proc.devRef .tc main_call0_v34) = shapeCast S1x64 (W (Proc.devRef .tc main_arg6)) shapeCasts_S64_S1x64 := by
  simp only [hostOps1]
  after_results_simp
  rfl

/-! The second layer's weights are untouched by the second stretch. -/

theorem entry1_arg4 (W : Valuation τ sig (Elt F)) :
    after (hostOps1 (F := F)) W (Proc.devRef .tc main_arg4) = W (Proc.devRef .tc main_arg4) := by
  simp only [hostOps1]
  after_results_simp <;> rfl

theorem entry1_arg5 (W : Valuation τ sig (Elt F)) :
    after (hostOps1 (F := F)) W (Proc.devRef .tc main_arg5) = W (Proc.devRef .tc main_arg5) := by
  simp only [hostOps1]
  after_results_simp <;> rfl

end Cert.KernelIdeal.Glue

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Body0.lean ====
/-
  Region 0's body, read at one element.

  The body loads a block of 2048 rows of the neighbour sums, of the counts and of the rows' own features, the two weight
  matrices and the bias row, and stores max(a, 0) with a the combine stage of those 2048 rows.  Read at row p and column
  q of the block, every layout step drops out: the casts of a shape to itself are the identity, the count column
  [2048,1] is read at (p, 0) wherever it is broadcast along a row, the bias row [1,256] at (0, q) wherever it is broadcast
  down a column, the changes of float format are the identity on extended reals, and a matrix product into the zero
  accumulator at (p, q) is the sum over k of left(p, k) · right(k, q).
-/
import proofs.«182186_j74148315398467_2_alg».proof.Proof.Gen.KernelIdeal.Skeleton
import proofs.«182186_j74148315398467_2_alg».proof.Proof.SageSpec
import proofs.«182186_j74148315398467_2_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Sage Cert.Bridge.Layout
open scoped BigOperators

/-- The left operand's index of the first layer's product keeps the output's row. -/
theorem lhs0_row (i : S2048x256.Idx) (c : dot_S2048x128_S128x256_S2048x256_1_0_0_1_n_n.contr.Idx) : (dot_S2048x128_S128x256_S2048x256_1_0_0_1_n_n.lhsIdx i c 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl

/-- The right operand's index keeps the output's column. -/
theorem rhs0_col (i : S2048x256.Idx) (c : dot_S2048x128_S128x256_S2048x256_1_0_0_1_n_n.contr.Idx) : (dot_S2048x128_S128x256_S2048x256_1_0_0_1_n_n.rhsIdx i c 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- The first layer's matrix product into the zero accumulator, at row `p` and column `q`: the sum over the one
    contracted axis (extent 128) of the left operand's row entry times the right operand's column entry. -/
theorem matmul0_apply (l : FVec Ideal S2048x128 .bf16) (r : FVec Ideal S128x256 .bf16) (p : Fin 2048) (q : Fin 256) :
    matmul dot_S2048x128_S128x256_S2048x256_1_0_0_1_n_n none l r (constant (F := Ideal) S2048x256 .f32 0x00000000#32) (ix2 p q)
      = ∑ k : Fin 128, l (ix2 p k) * r (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k :=
    funext fun a => Fin.ext (by
      match a with
      | ⟨0, _⟩ => exact lhs0_row _ _
      | ⟨1, _⟩ => exact (dot_S2048x128_S128x256_S2048x256_1_0_0_1_n_n.lhsIdx_val_of_single rfl _ _).trans hk)
  have er : dot_S2048x128_S128x256_S2048x256_1_0_0_1_n_n.rhsIdx (ix2 p q) ((contrEquiv1 dot_S2048x128_S128x256_S2048x256_1_0_0_1_n_n 128 rfl rfl).symm k) = ix2 k q :=
    funext fun a => Fin.ext (by
      match a with
      | ⟨0, _⟩ => exact (dot_S2048x128_S128x256_S2048x256_1_0_0_1_n_n.rhsIdx_val_of_single rfl _ _).trans hk
      | ⟨1, _⟩ => exact rhs0_col _ _)
  rw [el, er]

/-- The body's stored value at row `p`, column `q` of the block is the first layer of the loaded blocks there. -/
theorem pay0_apply (x0 : Vec Ideal S2048x128 .f32) (x1 : Vec Ideal S2048x1 .f32) (x2 : Vec Ideal S2048x128 .f32)
    (x3 x4 : Vec Ideal S128x256 .f32) (x5 : Vec Ideal S1x256 .f32) (p : Fin 2048) (q : Fin 256) :
    k0_pay1 x0 x1 x2 x3 x4 x5 (ix2 p q)
      = reluLayer (R := 2048) (K := 128) (N := 256) x0 (fun r => x1 (ix2 r (0 : Fin 1))) x2 x3 x4
          (fun j => x5 (ix2 (0 : Fin 1) j)) (ix2 p q) := by
  show k0_pay1 x0 x1 x2 x3 x4 x5 (ix2 p q)
      = max (combine (R := 2048) (K := 128) (N := 256) x0 (fun r => x1 (ix2 r (0 : Fin 1))) x2 x3 x4
          (fun j => x5 (ix2 (0 : Fin 1) j)) p q) (Ideal.ofBits .f32 0x00000000#32)
  unfold k0_pay1 combine
  simp only [maximumf_apply, addf_apply, broadcast_apply, matmul0_apply, truncf_apply, divf_apply, shapeCast_self,
    broadcastTo_a1_an_apply, broadcastTo_1n_an_apply]
  rfl

end Cert.KernelIdeal.Body

end
-- ==== Proof.Region0.lean ====
/-
  Region 0, from blocks to the array.

  The first layer's kernel runs over 22 grid points.  At point t it is handed rows t·2048 … t·2048 + 2047 of the
  neighbour sums, of the counts and of the rows' own features, the two whole weight matrices and the whole bias row, and
  writes rows t·2048 … t·2048 + 2047 of the output.  Row r of the layer depends on row r of the three row-blocked
  operands only, so what point t writes is exactly rows t·2048 … of the layer of the WHOLE arrays; the 22 blocks tile the
  45056 rows; hence the output array ends as the layer of the arrays the region found.
-/
import proofs.«182186_j74148315398467_2_alg».proof.Proof.Gen.KernelIdeal.Frame
import proofs.«182186_j74148315398467_2_alg».proof.Proof.Body0
import proofs.«182186_j74148315398467_2_alg».proof.Proof.SageSpec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx Cert.Sage Cert.KernelIdeal.Body
open Idealize.ShloMosaic.Pipeline (Dat)

variable (V : (c : Dev nD) → (b : Ref sig .tc) → Buf (Elt Ideal) ((c : Thread nD τ).loc b))

/-- The all-zero offset, as the body's loads and its one store spell it. -/
theorem zeros0 : (![0, 0] : Fin 2 → Nat) = fun _ => 0 := funext fun a => by fin_cases a <;> rfl

/-- The block indices at point `t`, decided over the 22 points: the three row-blocked operands and the output are at
    block `(t, 0)`; the weights and the bias at block `(0, 0)`. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first layer of the arrays as the region finds them: what the output array ends holding. -/
abbrev layer0 (c : Dev nD) : S45056x256.Idx → EReal :=
  reluLayer (R := 45056) (K := 128) (N := 256) (V c main_call0_v9) (fun r => V c main_call0_v14 (ix2 r (0 : Fin 1)))
          (V c main_call0_v15) (V c main_arg1) (V c main_arg2) (fun j => V c main_call0_v16 (ix2 (0 : Fin 1) j))

/-- Row `p` of the block of point `t` is row `t · 2048 + p` of the array, which has 22 · 2048 rows. -/
theorem row_lt0 (t : Fin cfg0.N) (p : Fin 2048) : t.val * 2048 + p.val < 45056 := by
  have ht : t.val < 22 := t.isLt
  have hp : p.val < 2048 := p.isLt
  omega

/-- The neighbour sums' block at point `t`, row `p`: the array's row `t · 2048 + p`. -/
theorem blk0_0 (c : Dev nD) (t : Fin cfg0.N) (p : Fin 2048) (k : Fin 128) :
    iblk0 V c 0 t (ix2 p k) = V c main_call0_v9 (ix2 (⟨t.val * 2048 + p.val, row_lt0 t p⟩ : Fin 45056) k) := by
  obtain ⟨e0, e1, -⟩ := index0 t
  show V c main_call0_v9 (((cfg0.win 0).blk t).view.emb (ix2 p k)) = _
  refine congrArg (V c main_call0_v9) (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- The counts' block at point `t`, row `p`: the array's row `t · 2048 + p`. -/
theorem blk0_1 (c : Dev nD) (t : Fin cfg0.N) (p : Fin 2048) :
    iblk0 V c 1 t (ix2 p (0 : Fin 1)) = V c main_call0_v14 (ix2 (⟨t.val * 2048 + p.val, row_lt0 t p⟩ : Fin 45056) (0 : Fin 1)) := by
  obtain ⟨-, -, e0, e1, -⟩ := index0 t
  show V c main_call0_v14 (((cfg0.win 1).blk t).view.emb (ix2 p (0 : Fin 1))) = _
  refine congrArg (V c main_call0_v14) (funext fun a => Fin.ext ?_)
  match a with
  | ⟨0, _⟩ => show win0_1.index t (0 : Fin 2) * 2048 + 1 * p.val = t.val * 2048 + p.val; omega
  | ⟨1, _⟩ => show win0_1.index t (1 : Fin 2) * 1 + 1 * 0 = 0; omega

/-- The rows' own features' block at point `t`, row `p`: the array's row `t · 2048 + p`. -/
theorem blk0_2 (c : Dev nD) (t : Fin cfg0.N) (p : Fin 2048) (k : Fin 128) :
    iblk0 V c 2 t (ix2 p k) = V c main_call0_v15 (ix2 (⟨t.val * 2048 + p.val, row_lt0 t p⟩ : Fin 45056) k) := by
  obtain ⟨-, -, -, -, e0, e1, -⟩ := index0 t
  show V c main_call0_v15 (((cfg0.win 2).blk t).view.emb (ix2 p k)) = _
  refine congrArg (V c main_call0_v15) (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega

/-- The first weight matrix's block at every point is the whole matrix. -/
theorem blk0_3 (c : Dev nD) (t : Fin cfg0.N) : iblk0 V c 3 t = V c main_arg1 := by
  obtain ⟨-, -, -, -, -, -, e0, e1, -⟩ := index0 t
  funext j
  show V c main_arg1 (((cfg0.win 3).blk t).view.emb j) = V c main_arg1 j
  refine congrArg (V c main_arg1) (funext fun a => Fin.ext ?_)
  match a with
  | ⟨0, _⟩ => show win0_3.index t (0 : Fin 2) * 128 + 1 * (j 0).val = (j 0).val; omega
  | ⟨1, _⟩ => show win0_3.index t (1 : Fin 2) * 256 + 1 * (j 1).val = (j 1).val; omega

/-- The second weight matrix's block at every point is the whole matrix. -/
theorem blk0_4 (c : Dev nD) (t : Fin cfg0.N) : iblk0 V c 4 t = V c main_arg2 := by
  obtain ⟨-, -, -, -, -, -, -, -, e0, e1, -⟩ := index0 t
  funext j
  show V c main_arg2 (((cfg0.win 4).blk t).view.emb j) = V c main_arg2 j
  refine congrArg (V c main_arg2) (funext fun a => Fin.ext ?_)
  match a with
  | ⟨0, _⟩ => show win0_4.index t (0 : Fin 2) * 128 + 1 * (j 0).val = (j 0).val; omega
  | ⟨1, _⟩ => show win0_4.index t (1 : Fin 2) * 256 + 1 * (j 1).val = (j 1).val; omega

/-- The bias row's block at every point is the whole row. -/
theorem blk0_5 (c : Dev nD) (t : Fin cfg0.N) : iblk0 V c 5 t = V c main_call0_v16 := by
  obtain ⟨-, -, -, -, -, -, -, -, -, -, e0, e1, -⟩ := index0 t
  funext j
  show V c main_call0_v16 (((cfg0.win 5).blk t).view.emb j) = V c main_call0_v16 j
  refine congrArg (V c main_call0_v16) (funext fun a => Fin.ext ?_)
  match a with
  | ⟨0, _⟩ => show win0_5.index t (0 : Fin 2) * 1 + 1 * (j 0).val = (j 0).val; omega
  | ⟨1, _⟩ => show win0_5.index t (1 : Fin 2) * 256 + 1 * (j 1).val = (j 1).val; omega

/-- Element `(p, q)` of the output's block at point `t` sits at `(t · 2048 + p, q)` of the output array. -/
theorem blk0_6 (t : Fin cfg0.N) (p : Fin 2048) (q : Fin 256) :
    ((cfg0.win 6).blk t).view.emb (ix2 p q) = ix2 (⟨t.val * 2048 + p.val, row_lt0 t p⟩ : Fin 45056) q := by
  obtain ⟨-, -, -, -, -, -, -, -, -, -, -, -, e0, e1⟩ := index0 t
  refine funext fun a => Fin.ext ?_
  match a with
  | ⟨0, _⟩ => show win0_6.index t (0 : Fin 2) * 2048 + 1 * p.val = t.val * 2048 + p.val; omega
  | ⟨1, _⟩ => show win0_6.index t (1 : Fin 2) * 256 + 1 * q.val = q.val; omega

/-- What point `t` writes back is block `t` of the first layer of the whole arrays: the body computes the layer of the
    loaded blocks, and row `p` of that is row `t · 2048 + p` of the layer of the arrays, which reads the same three rows,
    the same weights and the same bias. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero zeros0]
  simp only [View.ld_unit_zero (S := S2048x128) zeros0, View.ld_unit_zero (S := S2048x1) zeros0,
    View.ld_unit_zero (S := S128x256) zeros0, View.ld_unit_zero (S := S1x256) zeros0]
  funext j
  obtain ⟨p, q, rfl⟩ : ∃ (p : Fin 2048) (q : Fin 256), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = layer0 V c (((cfg0.win 6).blk t).view.emb (ix2 p q))
  refine (pay0_apply _ _ _ _ _ _ p q).trans ?_
  rw [blk0_3, blk0_4, blk0_5, blk0_6]
  exact reluLayer_row (V c main_arg1) (V c main_arg2) (fun j => V c main_call0_v16 (ix2 (0 : Fin 1) j)) p
    (⟨t.val * 2048 + p.val, row_lt0 t p⟩ : Fin 45056) (blk0_0 V c t p) (blk0_1 V c t p) (blk0_2 V c t p) q

/-- An index of the array is in point `t`'s block iff each coordinate is in the block's range on its axis. -/
theorem mem_blk0 (t : Fin cfg0.N) (i : S45056x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_call0_v17).slice (win0_6.rect t)).set ↔ _
  rw [View.set_slice_whole, Rect.mem_set_unit]
  exact Iff.rfl

/-- Every index of the array is in the block of the point its row falls to: row `r` in that of point `r / 2048`. -/
theorem cover0 (i : S45056x256.Idx) :
    ∃ t : Fin cfg0.N, (cfg0.win 6).flush t = true ∧ i ∈ ((cfg0.win 6).blk t).view.set := by
  have hi0 : (i 0).val < 45056 := (i 0).isLt
  have hi1 : (i 1).val < 256 := (i 1).isLt
  have ht : (i 0).val / 2048 < 22 := by omega
  obtain ⟨-, -, -, -, -, -, -, -, -, -, -, -, e0, e1⟩ := index0 ⟨(i 0).val / 2048, ht⟩
  have e0' : win0_6.index ⟨(i 0).val / 2048, ht⟩ (0 : Fin 2) = (i 0).val / 2048 := e0
  refine ⟨⟨(i 0).val / 2048, ht⟩, flush0_6 _, ?_⟩
  rw [mem_blk0]
  intro a
  match a with
  | ⟨0, _⟩ =>
    show win0_6.index ⟨(i 0).val / 2048, ht⟩ (0 : Fin 2) * 2048 ≤ (i 0).val
      ∧ (i 0).val < win0_6.index ⟨(i 0).val / 2048, ht⟩ (0 : Fin 2) * 2048 + 2048
    omega
  | ⟨1, _⟩ =>
    show win0_6.index ⟨(i 0).val / 2048, ht⟩ (1 : Fin 2) * 256 ≤ (i 1).val
      ∧ (i 1).val < win0_6.index ⟨(i 0).val / 2048, ht⟩ (1 : Fin 2) * 256 + 256
    omega

/-- The output array after the region: the first layer of the arrays the region found. -/
theorem final0 (c : Dev nD) :
    (dat0 V c).arrAt 6 cfg0.N
      = reluLayer (R := 45056) (K := 128) (N := 256) (V c main_call0_v9) (fun r => V c main_call0_v14 (ix2 r (0 : Fin 1)))
          (V c main_call0_v15) (V c main_arg1) (V c main_arg2) (fun j => V c main_call0_v16 (ix2 (0 : Fin 1) j)) :=
  (dat0 V c).arrAt_eq_of_cover 6 (layer0 V c) (fun t _ => flushed0_eq V c t) cover0

end Cert.KernelIdeal.Region

end
-- ==== Proof.Body1.lean ====
/-
  Region 1's body, read at one element.

  The body loads a block of 1024 rows of the neighbour sums, of the counts and of the rows' own features, the two weight
  matrices and the bias row.  It first forms the combine stage a of those 1024 rows exactly as the first layer's body
  does: the count column [1024,1] is read at (p, 0) wherever it is broadcast along a row, the bias row [1,64] at (0, q)
  wherever it is broadcast down a column, the casts of a shape to itself and the changes of float format are the
  identity on extended reals, and a matrix product into the zero accumulator at (p, q) is the sum over k of
  left(p, k) · right(k, q).  Then the row-wise log-softmax: the maximum of row p (a fold of max from −∞ over the row's 64
  entries) is kept as a column [1024,1] and read back at (p, 0) along the row; z = a − that maximum; the sum over the row
  of exp z is again kept as a column, its logarithm read back along the row; the result is z − log Σ exp z.  At (p, q)
  this is the log-softmax of row p of the combine stage, at column q.
-/
import proofs.«182186_j74148315398467_2_alg».proof.Proof.Gen.KernelIdeal.Skeleton
import proofs.«182186_j74148315398467_2_alg».proof.Proof.SageSpec
import proofs.«182186_j74148315398467_2_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Sage Cert.Bridge.Layout
open scoped BigOperators

/-- The left operand's index of the second layer's product keeps the output's row. -/
theorem lhs1_row (i : S1024x64.Idx) (c : dot_S1024x256_S256x64_S1024x64_1_0_0_1_n_n.contr.Idx) : (dot_S1024x256_S256x64_S1024x64_1_0_0_1_n_n.lhsIdx i c 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl

/-- The right operand's index keeps the output's column. -/
theorem rhs1_col (i : S1024x64.Idx) (c : dot_S1024x256_S256x64_S1024x64_1_0_0_1_n_n.contr.Idx) : (dot_S1024x256_S256x64_S1024x64_1_0_0_1_n_n.rhsIdx i c 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- The second layer's matrix product into the zero accumulator, at row `p` and column `q`: the sum over the one
    contracted axis (extent 256) of the left operand's row entry times the right operand's column entry. -/
theorem matmul1_apply (l : FVec Ideal S1024x256 .bf16) (r : FVec Ideal S256x64 .bf16) (p : Fin 1024) (q : Fin 64) :
    matmul dot_S1024x256_S256x64_S1024x64_1_0_0_1_n_n none l r (constant (F := Ideal) S1024x64 .f32 0x00000000#32) (ix2 p q)
      = ∑ k : Fin 256, l (ix2 p k) * r (ix2 k q) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k :=
    funext fun a => Fin.ext (by
      match a with
      | ⟨0, _⟩ => exact lhs1_row _ _
      | ⟨1, _⟩ => exact (dot_S1024x256_S256x64_S1024x64_1_0_0_1_n_n.lhsIdx_val_of_single rfl _ _).trans hk)
  have er : dot_S1024x256_S256x64_S1024x64_1_0_0_1_n_n.rhsIdx (ix2 p q) ((contrEquiv1 dot_S1024x256_S256x64_S1024x64_1_0_0_1_n_n 256 rfl rfl).symm k) = ix2 k q :=
    funext fun a => Fin.ext (by
      match a with
      | ⟨0, _⟩ => exact (dot_S1024x256_S256x64_S1024x64_1_0_0_1_n_n.rhsIdx_val_of_single rfl _ _).trans hk
      | ⟨1, _⟩ => exact rhs1_col _ _)
  rw [el, er]

/-- The combine stage of the loaded blocks, as the body computes it: everything before the row maximum. -/
def aff1 (v0 : Vec Ideal S1024x256 .f32) (v2 : Vec Ideal S1024x1 .f32) (v9 : Vec Ideal S1024x256 .f32)
    (v12 v14 : Vec Ideal S256x64 .f32) (v19 : Vec Ideal S1x64 .f32) : FVec Ideal S1024x64 .f32 :=
  have v1 : FVec Ideal S1024x256 .f32 := shapeCast S1024x256 v0 shapeCasts_S1024x256_S1024x256
  have v3 : FVec Ideal S1024x1 .f32 := shapeCast S1024x1 v2 shapeCasts_S1024x1_S1024x1
  have cst : Ideal .f32 := Scalar.ofBits .f32 0x3F800000#32
  have v4 : FVec Ideal S1024x1 .f32 := broadcast S1024x1 cst
  have v5 : FVec Ideal S1024x1 .f32 := maximumf v3 v4
  have v6 : FVec Ideal S1024x256 .f32 := broadcastTo S1024x256 v5 broadcasts_S1024x1_S1024x256
  have v7 : FVec Ideal S1024x256 .f32 := divf v1 v6
  have v8 : FVec Ideal S1024x256 .bf16 := truncf .bf16 v7 bitsLt_bf16_f32
  have v10 : FVec Ideal S1024x256 .f32 := shapeCast S1024x256 v9 shapeCasts_S1024x256_S1024x256
  have v11 : FVec Ideal S1024x256 .bf16 := truncf .bf16 v10 bitsLt_bf16_f32
  have v13 : FVec Ideal S256x64 .bf16 := truncf .bf16 v12 bitsLt_bf16_f32
  have v15 : FVec Ideal S256x64 .bf16 := truncf .bf16 v14 bitsLt_bf16_f32
  have cst_9 : FVec Ideal S1024x64 .f32 := constant S1024x64 .f32 0x00000000#32
  have v16 : FVec Ideal S1024x64 .f32 := matmul dot_S1024x256_S256x64_S1024x64_1_0_0_1_n_n none v8 v13 cst_9
  have cst_10 : FVec Ideal S1024x64 .f32 := constant S1024x64 .f32 0x00000000#32
  have v17 : FVec Ideal S1024x64 .f32 := matmul dot_S1024x256_S256x64_S1024x64_1_0_0_1_n_n none v11 v15 cst_10
  have v18 : FVec Ideal S1024x64 .f32 := addf v16 v17
  have v20 : FVec Ideal S1x64 .f32 := shapeCast S1x64 v19 shapeCasts_S1x64_S1x64
  have v21 : FVec Ideal S1x64 .f32 := shapeCast S1x64 v20 shapeCasts_S1x64_S1x64
  have v22 : FVec Ideal S1024x64 .f32 := broadcastTo S1024x64 v21 broadcasts_S1x64_S1024x64
  addf v18 v22

/-- The row maximum as the body takes it: a fold of `max` along each row from the float −∞. -/
def rowMax1 (a : FVec Ideal S1024x64 .f32) : FVec Ideal S1024 .f32 :=
  multiReduction .maximumf [1] S1024 a 0xFF800000#32 reduces_S1024x64_S1024 (.inl rfl) rfl

/-- The combine stage with its row maximum taken out: the maximum kept as a column and broadcast back along the row. -/
def shifted1 (a : FVec Ideal S1024x64 .f32) : FVec Ideal S1024x64 .f32 :=
  subf a (broadcastTo S1024x64 (shapeCast S1024x1 (rowMax1 a) shapeCasts_S1024_S1024x1) broadcasts_S1024x1_S1024x64)

/-- The row sum as the body takes it. -/
def rowSum1 (e : FVec Ideal S1024x64 .f32) : FVec Ideal S1024 .f32 :=
  multiReduction .add [1] S1024 e 0x00000000#32 reduces_S1024x64_S1024 (.inl rfl) rfl

/-- The row-wise log-softmax as the body computes it from the combine stage `a`: the row maximum taken out, then the
    logarithm of the row sum of the exponentials, kept as a column and broadcast back, taken out as well. -/
def lsm1 (a : FVec Ideal S1024x64 .f32) : FVec Ideal S1024x64 .f32 :=
  subf (shifted1 a)
    (broadcastTo S1024x64 (log (shapeCast S1024x1 (rowSum1 (exp (shifted1 a))) shapeCasts_S1024_S1024x1))
      broadcasts_S1024x1_S1024x64)

/-- The body is the log-softmax of its combine stage. -/
theorem k1_pay1_eq (x0 : Vec Ideal S1024x256 .f32) (x1 : Vec Ideal S1024x1 .f32) (x2 : Vec Ideal S1024x256 .f32)
    (x3 x4 : Vec Ideal S256x64 .f32) (x5 : Vec Ideal S1x64 .f32) :
    k1_pay1 x0 x1 x2 x3 x4 x5 = lsm1 (aff1 x0 x1 x2 x3 x4 x5) := rfl

/-- The combine stage at row `p`, column `q` of the block. -/
theorem aff1_apply (x0 : Vec Ideal S1024x256 .f32) (x1 : Vec Ideal S1024x1 .f32) (x2 : Vec Ideal S1024x256 .f32)
    (x3 x4 : Vec Ideal S256x64 .f32) (x5 : Vec Ideal S1x64 .f32) (p : Fin 1024) (q : Fin 64) :
    aff1 x0 x1 x2 x3 x4 x5 (ix2 p q)
      = combine (R := 1024) (K := 256) (N := 64) x0 (fun r => x1 (ix2 r (0 : Fin 1))) x2 x3 x4
          (fun j => x5 (ix2 (0 : Fin 1) j)) p q := by
  unfold aff1 combine
  simp only [addf_apply, broadcast_apply, matmul1_apply, truncf_apply, divf_apply, shapeCast_self,
    broadcastTo_a1_an_apply, broadcastTo_1n_an_apply, maximumf_apply]
  rfl

/-- Putting column `k` back into a row index `p` of the reduced shape gives the element `(p, k)`. -/
theorem lift1 (p : Fin 1024) (k : Fin 64) : reduces_S1024x64_S1024.lift (ix1 p) k = ix2 p k :=
  funext fun ax => by
    match ax with
    | ⟨0, _⟩ => rfl
    | ⟨1, _⟩ => rfl

/-- The row maximum at row `p`: the fold of `max` from the float −∞ over the row's 64 entries. -/
theorem rowMax1_apply (a : FVec Ideal S1024x64 .f32) (p : Fin 1024) :
    rowMax1 a (ix1 p)
      = (Finset.univ : Finset (Fin 64)).fold max (Ideal.ofBits .f32 0xFF800000#32) (fun j => a (ix2 p j)) := by
  unfold rowMax1
  refine (Ideal.multiReduction_maximumf_single a 0xFF800000#32 reduces_S1024x64_S1024 (.inl rfl) rfl (ix1 p)).trans ?_
  exact congrArg (fun f : Fin 64 → EReal => (Finset.univ : Finset (Fin 64)).fold max (Ideal.ofBits .f32 0xFF800000#32) f)
    (funext fun k => congrArg a (lift1 p k))

/-- The row sum at row `p`: the sum of the row's 64 entries. -/
theorem rowSum1_apply (e : FVec Ideal S1024x64 .f32) (p : Fin 1024) :
    rowSum1 e (ix1 p) = ∑ k : Fin 64, e (ix2 p k) := by
  unfold rowSum1
  refine (Ideal.multiReduction_add_single e 0x00000000#32 reduces_S1024x64_S1024 (.inl rfl) rfl (ix1 p)).trans ?_
  exact Finset.sum_congr rfl fun k _ => congrArg e (lift1 p k)

/-- The combine stage with its row maximum taken out, at row `p`, column `k`. -/
theorem shifted1_apply (a : FVec Ideal S1024x64 .f32) (p : Fin 1024) (k : Fin 64) :
    shifted1 a (ix2 p k)
      = a (ix2 p k) - (Finset.univ : Finset (Fin 64)).fold max (Ideal.ofBits .f32 0xFF800000#32) (fun j => a (ix2 p j)) := by
  unfold shifted1
  rw [subf_apply, broadcastTo_a1_an_apply, shapeCast_a_a1_apply, rowMax1_apply]

/-- The body's log-softmax at row `p`, column `q` is the log-softmax of row `p` of the combine stage, at `q`. -/
theorem lsm1_apply (a : FVec Ideal S1024x64 .f32) (p : Fin 1024) (q : Fin 64) :
    lsm1 a (ix2 p q) = lsmRow (fun j => a (ix2 p j)) q := by
  unfold lsm1 lsmRow
  rw [subf_apply, shifted1_apply, broadcastTo_a1_an_apply]
  show _ - Ideal.log (shapeCast S1024x1 (rowSum1 (exp (shifted1 a))) shapeCasts_S1024_S1024x1 (ix2 p (0 : Fin 1))) = _
  rw [shapeCast_a_a1_apply, rowSum1_apply]
  refine congrArg (fun s : EReal => _ - Ideal.log s) (Finset.sum_congr rfl fun k _ => ?_)
  show Ideal.exp (shifted1 a (ix2 p k)) = _
  rw [shifted1_apply]

/-- The body's stored value at row `p`, column `q` of the block is the second layer of the loaded blocks there. -/
theorem pay1_apply (x0 : Vec Ideal S1024x256 .f32) (x1 : Vec Ideal S1024x1 .f32) (x2 : Vec Ideal S1024x256 .f32)
    (x3 x4 : Vec Ideal S256x64 .f32) (x5 : Vec Ideal S1x64 .f32) (p : Fin 1024) (q : Fin 64) :
    k1_pay1 x0 x1 x2 x3 x4 x5 (ix2 p q)
      = logSoftmaxLayer (R := 1024) (K := 256) (N := 64) x0 (fun r => x1 (ix2 r (0 : Fin 1))) x2 x3 x4
          (fun j => x5 (ix2 (0 : Fin 1) j)) (ix2 p q) := by
  show k1_pay1 x0 x1 x2 x3 x4 x5 (ix2 p q)
      = lsmRow (combine (R := 1024) (K := 256) (N := 64) x0 (fun r => x1 (ix2 r (0 : Fin 1))) x2 x3 x4
          (fun j => x5 (ix2 (0 : Fin 1) j)) p) q
  rw [k1_pay1_eq, lsm1_apply]
  exact congrArg (fun r : Fin 64 → EReal => lsmRow r q) (funext fun j => aff1_apply x0 x1 x2 x3 x4 x5 p j)

end Cert.KernelIdeal.Body

end
-- ==== Proof.Region1.lean ====
/-
  Region 1, from blocks to the array.

  The second layer's kernel runs over 4 grid points.  At point t it is handed rows t·1024 … t·1024 + 1023 of the
  neighbour sums, of the counts and of the rows' own features, the two whole weight matrices and the whole bias row, and
  writes rows t·1024 … t·1024 + 1023 of the output.  Row r of the layer — the log-softmax of row r of the combine stage —
  depends on row r of the three row-blocked operands only, so what point t writes is exactly rows t·1024 … of the layer
  of the WHOLE arrays; the 4 blocks tile the 4096 rows; hence the output array ends as the layer of the arrays the region
  found.
-/
import proofs.«182186_j74148315398467_2_alg».proof.Proof.Gen.KernelIdeal.Frame
import proofs.«182186_j74148315398467_2_alg».proof.Proof.Body1
import proofs.«182186_j74148315398467_2_alg».proof.Proof.SageSpec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx Cert.Sage Cert.KernelIdeal.Body
open Idealize.ShloMosaic.Pipeline (Dat)

variable (V : (c : Dev nD) → (b : Ref sig .tc) → Buf (Elt Ideal) ((c : Thread nD τ).loc b))

/-- The all-zero offset, as the body's loads and its one store spell it. -/
theorem zeros1 : (![0, 0] : Fin 2 → Nat) = fun _ => 0 := funext fun a => by fin_cases a <;> rfl

/-- The block indices at point `t`, decided over the 4 points: the three row-blocked operands and the output are at
    block `(t, 0)`; the weights and the bias at block `(0, 0)`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The second layer of the arrays as the region finds them: what the output array ends holding. -/
abbrev layer1 (c : Dev nD) : S4096x64.Idx → EReal :=
  logSoftmaxLayer (R := 4096) (K := 256) (N := 64) (V c main_call0_v27) (fun r => V c main_call0_v32 (ix2 r (0 : Fin 1)))
          (V c main_call0_v33) (V c main_arg4) (V c main_arg5) (fun j => V c main_call0_v34 (ix2 (0 : Fin 1) j))

/-- Row `p` of the block of point `t` is row `t · 1024 + p` of the array, which has 4 · 1024 rows. -/
theorem row_lt1 (t : Fin cfg1.N) (p : Fin 1024) : t.val * 1024 + p.val < 4096 := by
  have ht : t.val < 4 := t.isLt
  have hp : p.val < 1024 := p.isLt
  omega

/-- The neighbour sums' block at point `t`, row `p`: the array's row `t · 1024 + p`. -/
theorem blk1_0 (c : Dev nD) (t : Fin cfg1.N) (p : Fin 1024) (k : Fin 256) :
    iblk1 V c 0 t (ix2 p k) = V c main_call0_v27 (ix2 (⟨t.val * 1024 + p.val, row_lt1 t p⟩ : Fin 4096) k) := by
  obtain ⟨e0, e1, -⟩ := index1 t
  show V c main_call0_v27 (((cfg1.win 0).blk t).view.emb (ix2 p k)) = _
  refine congrArg (V c main_call0_v27) (funext fun a => Fin.ext ?_)
  match a with
  | ⟨0, _⟩ => show win1_0.index t (0 : Fin 2) * 1024 + 1 * p.val = t.val * 1024 + p.val; omega
  | ⟨1, _⟩ => show win1_0.index t (1 : Fin 2) * 256 + 1 * k.val = k.val; omega

/-- The counts' block at point `t`, row `p`: the array's row `t · 1024 + p`. -/
theorem blk1_1 (c : Dev nD) (t : Fin cfg1.N) (p : Fin 1024) :
    iblk1 V c 1 t (ix2 p (0 : Fin 1)) = V c main_call0_v32 (ix2 (⟨t.val * 1024 + p.val, row_lt1 t p⟩ : Fin 4096) (0 : Fin 1)) := by
  obtain ⟨-, -, e0, e1, -⟩ := index1 t
  show V c main_call0_v32 (((cfg1.win 1).blk t).view.emb (ix2 p (0 : Fin 1))) = _
  refine congrArg (V c main_call0_v32) (funext fun a => Fin.ext ?_)
  match a with
  | ⟨0, _⟩ => show win1_1.index t (0 : Fin 2) * 1024 + 1 * p.val = t.val * 1024 + p.val; omega
  | ⟨1, _⟩ => show win1_1.index t (1 : Fin 2) * 1 + 1 * 0 = 0; omega

/-- The rows' own features' block at point `t`, row `p`: the array's row `t · 1024 + p`. -/
theorem blk1_2 (c : Dev nD) (t : Fin cfg1.N) (p : Fin 1024) (k : Fin 256) :
    iblk1 V c 2 t (ix2 p k) = V c main_call0_v33 (ix2 (⟨t.val * 1024 + p.val, row_lt1 t p⟩ : Fin 4096) k) := by
  obtain ⟨-, -, -, -, e0, e1, -⟩ := index1 t
  show V c main_call0_v33 (((cfg1.win 2).blk t).view.emb (ix2 p k)) = _
  refine congrArg (V c main_call0_v33) (funext fun a => Fin.ext ?_)
  match a with
  | ⟨0, _⟩ => show win1_2.index t (0 : Fin 2) * 1024 + 1 * p.val = t.val * 1024 + p.val; omega
  | ⟨1, _⟩ => show win1_2.index t (1 : Fin 2) * 256 + 1 * k.val = k.val; omega

/-- The first weight matrix's block at every point is the whole matrix. -/
theorem blk1_3 (c : Dev nD) (t : Fin cfg1.N) : iblk1 V c 3 t = V c main_arg4 := by
  obtain ⟨-, -, -, -, -, -, e0, e1, -⟩ := index1 t
  funext j
  show V c main_arg4 (((cfg1.win 3).blk t).view.emb j) = V c main_arg4 j
  refine congrArg (V c main_arg4) (funext fun a => Fin.ext ?_)
  match a with
  | ⟨0, _⟩ => show win1_3.index t (0 : Fin 2) * 256 + 1 * (j 0).val = (j 0).val; omega
  | ⟨1, _⟩ => show win1_3.index t (1 : Fin 2) * 64 + 1 * (j 1).val = (j 1).val; omega

/-- The second weight matrix's block at every point is the whole matrix. -/
theorem blk1_4 (c : Dev nD) (t : Fin cfg1.N) : iblk1 V c 4 t = V c main_arg5 := by
  obtain ⟨-, -, -, -, -, -, -, -, e0, e1, -⟩ := index1 t
  funext j
  show V c main_arg5 (((cfg1.win 4).blk t).view.emb j) = V c main_arg5 j
  refine congrArg (V c main_arg5) (funext fun a => Fin.ext ?_)
  match a with
  | ⟨0, _⟩ => show win1_4.index t (0 : Fin 2) * 256 + 1 * (j 0).val = (j 0).val; omega
  | ⟨1, _⟩ => show win1_4.index t (1 : Fin 2) * 64 + 1 * (j 1).val = (j 1).val; omega

/-- The bias row's block at every point is the whole row. -/
theorem blk1_5 (c : Dev nD) (t : Fin cfg1.N) : iblk1 V c 5 t = V c main_call0_v34 := by
  obtain ⟨-, -, -, -, -, -, -, -, -, -, e0, e1, -⟩ := index1 t
  funext j
  show V c main_call0_v34 (((cfg1.win 5).blk t).view.emb j) = V c main_call0_v34 j
  refine congrArg (V c main_call0_v34) (funext fun a => Fin.ext ?_)
  match a with
  | ⟨0, _⟩ => show win1_5.index t (0 : Fin 2) * 1 + 1 * (j 0).val = (j 0).val; omega
  | ⟨1, _⟩ => show win1_5.index t (1 : Fin 2) * 64 + 1 * (j 1).val = (j 1).val; omega

/-- Element `(p, q)` of the output's block at point `t` sits at `(t · 1024 + p, q)` of the output array. -/
theorem blk1_6 (t : Fin cfg1.N) (p : Fin 1024) (q : Fin 64) :
    ((cfg1.win 6).blk t).view.emb (ix2 p q) = ix2 (⟨t.val * 1024 + p.val, row_lt1 t p⟩ : Fin 4096) q := by
  obtain ⟨-, -, -, -, -, -, -, -, -, -, -, -, e0, e1⟩ := index1 t
  refine funext fun a => Fin.ext ?_
  match a with
  | ⟨0, _⟩ => show win1_6.index t (0 : Fin 2) * 1024 + 1 * p.val = t.val * 1024 + p.val; omega
  | ⟨1, _⟩ => show win1_6.index t (1 : Fin 2) * 64 + 1 * q.val = q.val; omega

/-- What point `t` writes back is block `t` of the second layer of the whole arrays: the body computes the layer of the
    loaded blocks, and row `p` of that is row `t · 1024 + p` of the layer of the arrays, which reads the same three rows,
    the same weights and the same bias. -/
theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero zeros1]
  simp only [View.ld_unit_zero (S := S1024x256) zeros1, View.ld_unit_zero (S := S1024x1) zeros1,
    View.ld_unit_zero (S := S256x64) zeros1, View.ld_unit_zero (S := S1x64) zeros1]
  funext j
  obtain ⟨p, q, rfl⟩ : ∃ (p : Fin 1024) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = layer1 V c (((cfg1.win 6).blk t).view.emb (ix2 p q))
  refine (pay1_apply _ _ _ _ _ _ p q).trans ?_
  rw [blk1_3, blk1_4, blk1_5, blk1_6]
  exact logSoftmaxLayer_row (V c main_arg4) (V c main_arg5) (fun j => V c main_call0_v34 (ix2 (0 : Fin 1) j)) p
    (⟨t.val * 1024 + p.val, row_lt1 t p⟩ : Fin 4096) (blk1_0 V c t p) (blk1_1 V c t p) (blk1_2 V c t p) q

/-- An index of the array is in point `t`'s block iff each coordinate is in the block's range on its axis. -/
theorem mem_blk1 (t : Fin cfg1.N) (i : S4096x64.Idx) :
    i ∈ ((cfg1.win 6).blk t).view.set ↔ ∀ a : Fin 2, win1_6.index t a * S1024x64.size a ≤ (i a).val
      ∧ (i a).val < win1_6.index t a * S1024x64.size a + S1024x64.size a := by
  show i ∈ ((View.whole main_v0).slice (win1_6.rect t)).set ↔ _
  rw [View.set_slice_whole, Rect.mem_set_unit]
  exact Iff.rfl

/-- Every index of the array is in the block of the point its row falls to: row `r` in that of point `r / 1024`. -/
theorem cover1 (i : S4096x64.Idx) :
    ∃ t : Fin cfg1.N, (cfg1.win 6).flush t = true ∧ i ∈ ((cfg1.win 6).blk t).view.set := by
  have hi0 : (i 0).val < 4096 := (i 0).isLt
  have hi1 : (i 1).val < 64 := (i 1).isLt
  have ht : (i 0).val / 1024 < 4 := by omega
  obtain ⟨-, -, -, -, -, -, -, -, -, -, -, -, e0, e1⟩ := index1 ⟨(i 0).val / 1024, ht⟩
  have e0' : win1_6.index ⟨(i 0).val / 1024, ht⟩ (0 : Fin 2) = (i 0).val / 1024 := e0
  refine ⟨⟨(i 0).val / 1024, ht⟩, flush1_6 _, ?_⟩
  rw [mem_blk1]
  intro a
  match a with
  | ⟨0, _⟩ =>
    show win1_6.index ⟨(i 0).val / 1024, ht⟩ (0 : Fin 2) * 1024 ≤ (i 0).val
      ∧ (i 0).val < win1_6.index ⟨(i 0).val / 1024, ht⟩ (0 : Fin 2) * 1024 + 1024
    omega
  | ⟨1, _⟩ =>
    show win1_6.index ⟨(i 0).val / 1024, ht⟩ (1 : Fin 2) * 64 ≤ (i 1).val
      ∧ (i 1).val < win1_6.index ⟨(i 0).val / 1024, ht⟩ (1 : Fin 2) * 64 + 64
    omega

/-- The output array after the region: the second layer of the arrays the region found. -/
theorem final1 (c : Dev nD) :
    (dat1 V c).arrAt 6 cfg1.N
      = logSoftmaxLayer (R := 4096) (K := 256) (N := 64) (V c main_call0_v27) (fun r => V c main_call0_v32 (ix2 r (0 : Fin 1)))
          (V c main_call0_v33) (V c main_arg4) (V c main_arg5) (fun j => V c main_call0_v34 (ix2 (0 : Fin 1) j)) :=
  (dat1 V c).arrAt_eq_of_cover 6 (layer1 V c) (fun t _ => flushed1_eq V c t) cover1

end Cert.KernelIdeal.Region

end
-- ==== Proof.KernelValue.lean ====
/-
  What the kernel's result array finally holds.

  Nothing is computed here; the pieces are chained.  The result array ends at what the second region's write-backs leave,
  which is the second layer of the arrays that region found; those are the neighbour sums, counts and leading rows of what
  the first region's output array held, and the second layer's weights and bias as launched; the first region's output
  array held what ITS write-backs left, the first layer of the arrays it found; and those are the neighbour sums, counts
  and leading rows of the features, and the first layer's weights and bias, as launched.  A count arrives as a column and
  a bias as a row: reading the column at (r, 0) and the row at (0, j) gives back the vector's entries.  Together: the
  network of the launch arguments.
-/
import proofs.«182186_j74148315398467_2_alg».proof.Proof.KernelGlue
import proofs.«182186_j74148315398467_2_alg».proof.Proof.Region0
import proofs.«182186_j74148315398467_2_alg».proof.Proof.Region1
import proofs.«182186_j74148315398467_2_alg».proof.Proof.SageNet
import proofs.«182186_j74148315398467_2_alg».proof.Proof.LibLayout
import Idealize.ShloMosaic.Lib.Pipeline.Value
import Idealize.ShloMosaic.Lib.ValueLayout

noncomputable section

namespace Cert.KernelIdeal.Result

open Cert.KernelIdeal Cert.KernelIdeal.Gen Cert.KernelIdeal.Glue Cert.KernelIdeal.Region
open Idealize.ShloMosaic Idealize.ShloMosaic.TcCoe Idealize.ShloMosaic.ValueIdx Idealize.SL.Sem Idealize.ShloMosaic.StableHlo
open Cert.Sage Cert.Sage.Glue Cert.Bridge.Layout

/-- An `[n]` vector cast to the row `[1, n]` reads, at `(u, j)`, the vector at `j`. -/
theorem shapeCast_n_1n_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

variable (m : (ℓ : Loc nD τ sig) → Buf (Elt Ideal) ℓ) (ρ : Dev nD → PrngReg)

/-- After the first region, its output array holds the first layer's output of the launch arguments. -/
theorem hidden_eq (c : Dev nD) :
    W2 m ρ c (Proc.devRef .tc main_call0_v17) = Cert.Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W2_arr m ρ c 6).trans ?_
  refine (final0 (V1 m ρ) c).trans ?_
  unfold Cert.Sage.hidden
  have e0 : V1 m ρ c main_call0_v9 = nbrSum1 (F := Ideal) (m ((c : Thread nD τ).loc main_arg0)) (m ((c : Thread nD τ).loc main_arg7)) (m ((c : Thread nD τ).loc main_arg8)) := entry0_sum (W0 m ρ c)
  have e1 : (fun r : Fin 45056 => V1 m ρ c main_call0_v14 (ix2 r (0 : Fin 1)))
      = fun r => nbrCnt1 (F := Ideal) (m ((c : Thread nD τ).loc main_arg8)) (ix1 r) := funext fun r => by
    rw [show V1 m ρ c main_call0_v14 = shapeCast S45056x1 (nbrCnt1 (F := Ideal) (m ((c : Thread nD τ).loc main_arg8))) shapeCasts_S45056_S45056x1
      from entry0_cnt (W0 m ρ c)]
    exact shapeCast_a_a1_apply _ _ r 0
  have e2 : V1 m ρ c main_call0_v15 = rows1 (F := Ideal) (m ((c : Thread nD τ).loc main_arg0)) := entry0_rows (W0 m ρ c)
  have e3 : V1 m ρ c main_arg1 = (m ((c : Thread nD τ).loc main_arg1)) := entry0_arg1 (W0 m ρ c)
  have e4 : V1 m ρ c main_arg2 = (m ((c : Thread nD τ).loc main_arg2)) := entry0_arg2 (W0 m ρ c)
  have e5 : (fun j : Fin 256 => V1 m ρ c main_call0_v16 (ix2 (0 : Fin 1) j)) = fun j => (m ((c : Thread nD τ).loc main_arg3)) (ix1 j) :=
    funext fun j => by
      rw [show V1 m ρ c main_call0_v16 = shapeCast S1x256 (m ((c : Thread nD τ).loc main_arg3)) shapeCasts_S256_S1x256 from entry0_bias (W0 m ρ c)]
      exact shapeCast_n_1n_apply _ _ 0 j
  rw [e0, e1, e2, e3, e4, e5]

/-- After the whole run, the result array holds the network of the launch arguments. -/
theorem result_eq (c : Dev nD) :
    W4 m ρ c (Proc.devRef .tc main_v0) = sageNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ?_
  refine (final1 (V3 m ρ) c).trans ?_
  unfold sageNet
  have hH := hidden_eq m ρ c
  have a4 : W2 m ρ c (Proc.devRef .tc main_arg4) = (m ((c : Thread nD τ).loc main_arg4)) :=
    (W2_of_ne m ρ c main_arg4 (by decide)).trans (entry0_arg4 (W0 m ρ c))
  have a5 : W2 m ρ c (Proc.devRef .tc main_arg5) = (m ((c : Thread nD τ).loc main_arg5)) :=
    (W2_of_ne m ρ c main_arg5 (by decide)).trans (entry0_arg5 (W0 m ρ c))
  have a6 : W2 m ρ c (Proc.devRef .tc main_arg6) = (m ((c : Thread nD τ).loc main_arg6)) :=
    (W2_of_ne m ρ c main_arg6 (by decide)).trans (entry0_arg6 (W0 m ρ c))
  have a9 : W2 m ρ c (Proc.devRef .tc main_arg9) = (m ((c : Thread nD τ).loc main_arg9)) :=
    (W2_of_ne m ρ c main_arg9 (by decide)).trans (entry0_arg9 (W0 m ρ c))
  have a10 : W2 m ρ c (Proc.devRef .tc main_arg10) = (m ((c : Thread nD τ).loc main_arg10)) :=
    (W2_of_ne m ρ c main_arg10 (by decide)).trans (entry0_arg10 (W0 m ρ c))
  have f0 : V3 m ρ c main_call0_v27 = nbrSum2 (F := Ideal) (Cert.Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg9)) (m ((c : Thread nD τ).loc main_arg10)) :=
    (entry1_sum (W2 m ρ c)).trans (by rw [hH, a9, a10])
  have f1 : (fun r : Fin 4096 => V3 m ρ c main_call0_v32 (ix2 r (0 : Fin 1)))
      = fun r => nbrCnt2 (F := Ideal) (m ((c : Thread nD τ).loc main_arg10)) (ix1 r) := funext fun r => by
    rw [show V3 m ρ c main_call0_v32
        = shapeCast S4096x1 (nbrCnt2 (F := Ideal) (W2 m ρ c (Proc.devRef .tc main_arg10))) shapeCasts_S4096_S4096x1
      from entry1_cnt (W2 m ρ c), a10]
    exact shapeCast_a_a1_apply _ _ r 0
  have f2 : V3 m ρ c main_call0_v33 = rows2 (F := Ideal) (Cert.Sage.hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) :=
    (entry1_rows (W2 m ρ c)).trans (by rw [hH])
  have f3 : V3 m ρ c main_arg4 = (m ((c : Thread nD τ).loc main_arg4)) := (entry1_arg4 (W2 m ρ c)).trans a4
  have f4 : V3 m ρ c main_arg5 = (m ((c : Thread nD τ).loc main_arg5)) := (entry1_arg5 (W2 m ρ c)).trans a5
  have f5 : (fun j : Fin 64 => V3 m ρ c main_call0_v34 (ix2 (0 : Fin 1) j)) = fun j => (m ((c : Thread nD τ).loc main_arg6)) (ix1 j) :=
    funext fun j => by
      rw [show V3 m ρ c main_call0_v34 = shapeCast S1x64 (W2 m ρ c (Proc.devRef .tc main_arg6)) shapeCasts_S64_S1x64
        from entry1_bias (W2 m ρ c), a6]
      exact shapeCast_n_1n_apply _ _ 0 j
  rw [f0, f1, f2, f3, f4, f5]

end Cert.KernelIdeal.Result

end
-- ==== Proof.lean ====
/-
  The certificate of a two-layer graph convolution: the kernel against its reference, over the extended reals.

  Both programs take node features x, two layers' weights and biases, and two edge lists.  For each layer and each target
  row r they form the sum s(r, ·) of the neighbours' feature rows and the number cnt(r) of neighbours (by gather and
  scatter-add, on the host in both programs), and then

      a(r, q) = ( Σ_k s(r,k) / max(cnt(r), 1) · Wl(k,q) + Σ_k x(r,k) · Wr(k,q) ) + b(q);

  the first layer ends in max(a, 0), the second in the row-wise log-softmax a − max_q a − log Σ_q exp(a − max_q a).
  The reference does the dense part with whole-array host operations; the kernel does it in two grids of row blocks
  (22 blocks of 2048 rows, then 4 blocks of 1024), dividing by the clamped count inside the block and multiplying through
  bf16 operands, which at the extended reals are the same numbers.  A row of either layer depends on that row of s, cnt
  and x only, so the layer of a block of rows is that block of the layer, and the blocks tile the output: the kernel's
  arrays are the layers of the whole arrays.  Same operations, same order, same literals on both sides: no law of
  arithmetic is used and the inputs' finiteness is never opened.

  Here the pieces are joined: both runs end with the result array at ONE function of the launch arguments (the network,
  `Cert.Sage.sageNet`); the three frames are the kernels' generated frames and the reference's run with its result
  dropped; the idealization rewrote nothing, so what it preserves is trivially so.
-/
import proofs.«182186_j74148315398467_2_alg».proof.Defs
import proofs.«182186_j74148315398467_2_alg».proof.Proof.Gen.Kernel
import proofs.«182186_j74148315398467_2_alg».proof.Proof.Gen.Kernel.Frame
import proofs.«182186_j74148315398467_2_alg».proof.Proof.Gen.KernelIdeal
import proofs.«182186_j74148315398467_2_alg».proof.Proof.Gen.KernelIdeal.Frame
import proofs.«182186_j74148315398467_2_alg».proof.Proof.Gen.ReferenceIdeal
import proofs.«182186_j74148315398467_2_alg».proof.Proof.Gen.Pre_finite_inputs
import proofs.«182186_j74148315398467_2_alg».proof.Proof.RefRun
import proofs.«182186_j74148315398467_2_alg».proof.Proof.RefValue
import proofs.«182186_j74148315398467_2_alg».proof.Proof.KernelRun
import proofs.«182186_j74148315398467_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both idealized programs end with the result array at the network of the
    arguments. -/
theorem algebraic : Cert.algebraic_KernelIdeal_ReferenceIdeal := by
  intro m ρ m' ρ' _ hagree
  refine ⟨fun c => Cert.Sage.sageNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10⟩ := hagree c
    rw [Cert.ReferenceIdeal.RefValue.v53_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
